-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S50257x1024 : Shape := ⟨2, ![50257, 1024]⟩
abbrev S50257 : Shape := ⟨1, ![50257]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192 : S_.BroadcastsInDim S8192 (![] : Fin 0 → Fin S8192.rank)
  reducesTo_S8192_S_d0 : S8192.ReducesTo [0] S_
  bcast_S_S50257x1024 : S_.BroadcastsInDim S50257x1024 (![] : Fin 0 → Fin S50257x1024.rank)
  reducesTo_S50257x1024_S_d0_1 : S50257x1024.ReducesTo [0, 1] S_
  bcast_S_S50257 : S_.BroadcastsInDim S50257 (![] : Fin 0 → Fin S50257.rank)
  reducesTo_S50257_S_d0 : S50257.ReducesTo [0] S_

variable [Facts]

def fn_part1 {F : FTy → Type} [FloatOps F] (main_arg6 : FVec F S50257 .f32) (main_v13 : IVec S_ 1) (main_v16 : IVec S50257x1024 1) : IVec S_ 1 :=
  let main_c_5 : IVec S_ 1 := constantI S_ 1 1#1
  let main_v17 : IVec S_ 1 := (fun x v => Host.reduce IntOp.andi x v reducesTo_S50257x1024_S_d0_1 h_S_) main_v16 main_c_5
  let main_v18 : IVec S_ 1 := andi main_v13 main_v17
  let main_v19 : FVec F S50257 .f32 := Host.absf main_arg6
  let main_cst_6 : FVec F S_ .f32 := constant S_ .f32 0x7F800000#32
  let main_v20 : FVec F S50257 .f32 := broadcastInDim S50257 ![] bcast_S_S50257 main_cst_6
  let main_v21 : IVec S50257 1 := cmpf .olt main_v19 main_v20
  let main_c_7 : IVec S_ 1 := constantI S_ 1 1#1
  let main_v22 : IVec S_ 1 := (fun x v => Host.reduce IntOp.andi x v reducesTo_S50257_S_d0 h_S_) main_v21 main_c_7
  let main_v23 : IVec S_ 1 := andi main_v18 main_v22
  main_v23

def fn {F : FTy → Type} [FloatOps F] (main_arg0 : FVec F S8192x1024 .f32) (main_arg1 : IVec S8192 32) (main_arg2 : IVec S8192 32) (main_arg3 : FVec F S8192 .f32) (main_arg4 : FVec F S8192 .f32) (main_arg5 : FVec F S50257x1024 .f32) (main_arg6 : FVec F S50257 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192 .f32 := Host.absf main_arg3
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg4
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S50257x1024 .f32 := Host.absf main_arg5
  let main_cst_4 : FVec F S_ .f32 := constant S_ .f32 0x7F800000#32
  let main_v15 : FVec F S50257x1024 .f32 := broadcastInDim S50257x1024 ![] bcast_S_S50257x1024 main_cst_4
  let main_v16 : IVec S50257x1024 1 := cmpf .olt main_v14 main_v15
  fn_part1 (F := F) main_arg6 main_v13 main_v16
-- ==== Kernel.lean ====
abbrev S8192x1024 : Shape := ⟨2, ![8192, 1024]⟩
abbrev S8192 : Shape := ⟨1, ![8192]⟩
abbrev S50257x1024 : Shape := ⟨2, ![50257, 1024]⟩
abbrev S50257 : Shape := ⟨1, ![50257]⟩
abbrev S_ : Shape := ⟨0, ![]⟩
abbrev S8192x1 : Shape := ⟨2, ![8192, 1]⟩
abbrev S1x8192 : Shape := ⟨2, ![1, 8192]⟩
abbrev S8192x8193 : Shape := ⟨2, ![8192, 8193]⟩
abbrev S256x1024 : Shape := ⟨2, ![256, 1024]⟩
abbrev S256x1 : Shape := ⟨2, ![256, 1]⟩
abbrev S256x8193 : Shape := ⟨2, ![256, 8193]⟩
abbrev S256 : Shape := ⟨1, ![256]⟩
abbrev S512x1024 : Shape := ⟨2, ![512, 1024]⟩
abbrev S1x512 : Shape := ⟨2, ![1, 512]⟩
abbrev S256x512 : Shape := ⟨2, ![256, 512]⟩

abbrev nBuf : Space → Nat
  | .hbm => 55
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .i32⟩
  | .hbm, ⟨3, _⟩ => ⟨S8192, .f32⟩
  | .hbm, ⟨4, _⟩ => ⟨S8192, .f32⟩
  | .hbm, ⟨5, _⟩ => ⟨S50257x1024, .f32⟩
  | .hbm, ⟨6, _⟩ => ⟨S50257, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x1024, .f32⟩
  | .hbm, ⟨16, _⟩ => ⟨S8192x1024, .bf16⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192x1, .i32⟩
  | .hbm, ⟨25, _⟩ => ⟨S8192, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x1024, .f32⟩
  | .hbm, ⟨35, _⟩ => ⟨S8192x1024, .bf16⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192, .f32⟩
  | .hbm, ⟨45, _⟩ => ⟨S8192x1024, .bf16⟩
  | .hbm, ⟨46, _⟩ => ⟨S8192x1, .i32⟩
  | .hbm, ⟨47, _⟩ => ⟨S1x8192, .i32⟩
  | .hbm, ⟨48, _⟩ => ⟨S8192x1, .f32⟩
  | .hbm, ⟨49, _⟩ => ⟨S8192x1, .f32⟩
  | .hbm, ⟨50, _⟩ => ⟨S1x8192, .f32⟩
  | .hbm, ⟨51, _⟩ => ⟨S1x8192, .f32⟩
  | .hbm, ⟨52, _⟩ => ⟨S8192x8193, .f32⟩
  | .hbm, ⟨53, _⟩ => ⟨S_, .i32⟩
  | .hbm, ⟨54, _⟩ => ⟨S8192, .i32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S8192x1024, .bf16⟩
  | .local _ .vmem, ⟨5, _⟩ => ⟨S256x1, .i32⟩
  | .local _ .vmem, ⟨6, _⟩ => ⟨S256x1, .i32⟩
  | .local _ .vmem, ⟨7, _⟩ => ⟨S1x8192, .i32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S1x8192, .f32⟩
  | .local _ .vmem, ⟨13, _⟩ => ⟨S1x8192, .f32⟩
  | .local _ .vmem, ⟨14, _⟩ => ⟨S256x8193, .f32⟩
  | .local _ .vmem, ⟨15, _⟩ => ⟨S256x8193, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x8193 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  shapeCasts_S8192_S8192x1 : S8192.ShapeCasts S8192x1
  shapeCasts_S8192_S1x8192 : S8192.ShapeCasts S1x8192
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x8193_S256x1_0_0 : ∀ a, (![0, 0] : Fin 2 → Nat) a + S256x1.size a ≤ S256x8193.size a
  inb_S8192x1024_S512x1024_0_0 : ∀ a, (![0, 0] : Fin 2 → Nat) a + S512x1024.size a ≤ S8192x1024.size a
  h_S512x1024 : 0 < S512x1024.numel
  shapeCasts_S512x1024_S512x1024 : S512x1024.ShapeCasts S512x1024
  inb_S1x8192_S1x512_0_0 : ∀ a, (![0, 0] : Fin 2 → Nat) a + S1x512.size a ≤ S1x8192.size a
  h_S1x512 : 0 < S1x512.numel
  shapeCasts_S1x512_S1x512 : S1x512.ShapeCasts S1x512
  broadcasts_S1x512_S256x512 : S1x512.Broadcasts S256x512
  broadcasts_S256x1_S256x512 : S256x1.Broadcasts S256x512
  inb_S256x8193_S256x512_0_1 : ∀ a, (![0, 1] : Fin 2 → Nat) a + S256x512.size a ≤ S256x8193.size a
  h_S256x512 : 0 < S256x512.numel
  inb_S8192x1024_S512x1024_512_0 : ∀ a, (![512, 0] : Fin 2 → Nat) a + S512x1024.size a ≤ S8192x1024.size a
  inb_S1x8192_S1x512_0_512 : ∀ a, (![0, 512] : Fin 2 → Nat) a + S1x512.size a ≤ S1x8192.size a
  inb_S256x8193_S256x512_0_513 : ∀ a, (![0, 513] : Fin 2 → Nat) a + S256x512.size a ≤ S256x8193.size a
  inb_S8192x1024_S512x1024_1024_0 : ∀ a, (![1024, 0] : Fin 2 → Nat) a + S512x1024.size a ≤ S8192x1024.size a
  inb_S1x8192_S1x512_0_1024 : ∀ a, (![0, 1024] : Fin 2 → Nat) a + S1x512.size a ≤ S1x8192.size a
  inb_S256x8193_S256x512_0_1025 : ∀ a, (![0, 1025] : Fin 2 → Nat) a + S256x512.size a ≤ S256x8193.size a
  inb_S8192x1024_S512x1024_1536_0 : ∀ a, (![1536, 0] : Fin 2 → Nat) a + S512x1024.size a ≤ S8192x1024.size a
  inb_S1x8192_S1x512_0_1536 : ∀ a, (![0, 1536] : Fin 2 → Nat) a + S1x512.size a ≤ S1x8192.size a
  inb_S256x8193_S256x512_0_1537 : ∀ a, (![0, 1537] : Fin 2 → Nat) a + S256x512.size a ≤ S256x8193.size a
  inb_S8192x1024_S512x1024_2048_0 : ∀ a, (![2048, 0] : Fin 2 → Nat) a + S512x1024.size a ≤ S8192x1024.size a
  inb_S1x8192_S1x512_0_2048 : ∀ a, (![0, 2048] : Fin 2 → Nat) a + S1x512.size a ≤ S1x8192.size a
  inb_S256x8193_S256x512_0_2049 : ∀ a, (![0, 2049] : Fin 2 → Nat) a + S256x512.size a ≤ S256x8193.size a
  inb_S8192x1024_S512x1024_2560_0 : ∀ a, (![2560, 0] : Fin 2 → Nat) a + S512x1024.size a ≤ S8192x1024.size a
  inb_S1x8192_S1x512_0_2560 : ∀ a, (![0, 2560] : Fin 2 → Nat) a + S1x512.size a ≤ S1x8192.size a
  inb_S256x8193_S256x512_0_2561 : ∀ a, (![0, 2561] : Fin 2 → Nat) a + S256x512.size a ≤ S256x8193.size a
  inb_S8192x1024_S512x1024_3072_0 : ∀ a, (![3072, 0] : Fin 2 → Nat) a + S512x1024.size a ≤ S8192x1024.size a
  inb_S1x8192_S1x512_0_3072 : ∀ a, (![0, 3072] : Fin 2 → Nat) a + S1x512.size a ≤ S1x8192.size a
  inb_S256x8193_S256x512_0_3073 : ∀ a, (![0, 3073] : Fin 2 → Nat) a + S256x512.size a ≤ S256x8193.size a
  inb_S8192x1024_S512x1024_3584_0 : ∀ a, (![3584, 0] : Fin 2 → Nat) a + S512x1024.size a ≤ S8192x1024.size a
  inb_S1x8192_S1x512_0_3584 : ∀ a, (![0, 3584] : Fin 2 → Nat) a + S1x512.size a ≤ S1x8192.size a
  inb_S256x8193_S256x512_0_3585 : ∀ a, (![0, 3585] : Fin 2 → Nat) a + S256x512.size a ≤ S256x8193.size a
  inb_S8192x1024_S512x1024_4096_0 : ∀ a, (![4096, 0] : Fin 2 → Nat) a + S512x1024.size a ≤ S8192x1024.size a
  inb_S1x8192_S1x512_0_4096 : ∀ a, (![0, 4096] : Fin 2 → Nat) a + S1x512.size a ≤ S1x8192.size a
  inb_S256x8193_S256x512_0_4097 : ∀ a, (![0, 4097] : Fin 2 → Nat) a + S256x512.size a ≤ S256x8193.size a
  inb_S8192x1024_S512x1024_4608_0 : ∀ a, (![4608, 0] : Fin 2 → Nat) a + S512x1024.size a ≤ S8192x1024.size a
  inb_S1x8192_S1x512_0_4608 : ∀ a, (![0, 4608] : Fin 2 → Nat) a + S1x512.size a ≤ S1x8192.size a
  inb_S256x8193_S256x512_0_4609 : ∀ a, (![0, 4609] : Fin 2 → Nat) a + S256x512.size a ≤ S256x8193.size a
  inb_S8192x1024_S512x1024_5120_0 : ∀ a, (![5120, 0] : Fin 2 → Nat) a + S512x1024.size a ≤ S8192x1024.size a
  inb_S1x8192_S1x512_0_5120 : ∀ a, (![0, 5120] : Fin 2 → Nat) a + S1x512.size a ≤ S1x8192.size a
  inb_S256x8193_S256x512_0_5121 : ∀ a, (![0, 5121] : Fin 2 → Nat) a + S256x512.size a ≤ S256x8193.size a
  inb_S8192x1024_S512x1024_5632_0 : ∀ a, (![5632, 0] : Fin 2 → Nat) a + S512x1024.size a ≤ S8192x1024.size a
  inb_S1x8192_S1x512_0_5632 : ∀ a, (![0, 5632] : Fin 2 → Nat) a + S1x512.size a ≤ S1x8192.size a
  inb_S256x8193_S256x512_0_5633 : ∀ a, (![0, 5633] : Fin 2 → Nat) a + S256x512.size a ≤ S256x8193.size a
  inb_S8192x1024_S512x1024_6144_0 : ∀ a, (![6144, 0] : Fin 2 → Nat) a + S512x1024.size a ≤ S8192x1024.size a
  inb_S1x8192_S1x512_0_6144 : ∀ a, (![0, 6144] : Fin 2 → Nat) a + S1x512.size a ≤ S1x8192.size a
  inb_S256x8193_S256x512_0_6145 : ∀ a, (![0, 6145] : Fin 2 → Nat) a + S256x512.size a ≤ S256x8193.size a
  inb_S8192x1024_S512x1024_6656_0 : ∀ a, (![6656, 0] : Fin 2 → Nat) a + S512x1024.size a ≤ S8192x1024.size a
  inb_S1x8192_S1x512_0_6656 : ∀ a, (![0, 6656] : Fin 2 → Nat) a + S1x512.size a ≤ S1x8192.size a
  inb_S256x8193_S256x512_0_6657 : ∀ a, (![0, 6657] : Fin 2 → Nat) a + S256x512.size a ≤ S256x8193.size a
  inb_S8192x1024_S512x1024_7168_0 : ∀ a, (![7168, 0] : Fin 2 → Nat) a + S512x1024.size a ≤ S8192x1024.size a
  inb_S1x8192_S1x512_0_7168 : ∀ a, (![0, 7168] : Fin 2 → Nat) a + S1x512.size a ≤ S1x8192.size a
  inb_S256x8193_S256x512_0_7169 : ∀ a, (![0, 7169] : Fin 2 → Nat) a + S256x512.size a ≤ S256x8193.size a
  inb_S8192x1024_S512x1024_7680_0 : ∀ a, (![7680, 0] : Fin 2 → Nat) a + S512x1024.size a ≤ S8192x1024.size a
  inb_S1x8192_S1x512_0_7680 : ∀ a, (![0, 7680] : Fin 2 → Nat) a + S1x512.size a ≤ S1x8192.size a
  inb_S256x8193_S256x512_0_7681 : ∀ a, (![0, 7681] : Fin 2 → Nat) a + S256x512.size a ≤ S256x8193.size a
  gather_S50257x1024_S8192x1_S8192x1024_1_0_n_n_0_1_11024_wf : GatherDims.WF S50257x1024 S8192x1 S8192x1024 [1] [0] [] [0] [] 1 ![1, 1024]
  gather_S50257_S8192x1_S8192_n_0_n_n_0_1_1_wf : GatherDims.WF S50257 S8192x1 S8192 [] [0] [] [0] [] 1 ![1]
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1024.size a ≤ S8192x1024.size a
  hwx0_2 : ∀ i : grid0.Coords, EltTy.bits .bf16 = 32 ∨ (Rect.block (s := S8192x1024) S8192x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .i32 = 32 ∨ (Rect.block (s := S8192x1) S256x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .i32 = 32 ∨ (Rect.block (s := S1x8192) S1x8192.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S8192x1.size a
  hwx0_5 : ∀ i : grid0.Coords, EltTy.bits .f32 = 32 ∨ (Rect.block (s := S8192x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S8192x1.size a
  hwx0_6 : ∀ i : grid0.Coords, EltTy.bits .f32 = 32 ∨ (Rect.block (s := S8192x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8192.size a ≤ S1x8192.size a
  hwx0_7 : ∀ i : grid0.Coords, EltTy.bits .f32 = 32 ∨ (Rect.block (s := S1x8192) S1x8192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8192.size a ≤ S1x8192.size a
  hwx0_8 : ∀ i : grid0.Coords, EltTy.bits .f32 = 32 ∨ (Rect.block (s := S1x8192) S1x8192.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x8193.size a ≤ S8192x8193.size a
  hwx0_9 : ∀ i : grid0.Coords, EltTy.bits .f32 = 32 ∨ (Rect.block (s := S8192x8193) S256x8193.size (cc0_transform_9 i) (hinb0_9 i)).WholeWords (EltTy.packing .f32)

variable [Facts₀]

def gather_S50257x1024_S8192x1_S8192x1024_1_0_n_n_0_1_11024 : GatherDims S50257x1024 S8192x1 S8192x1024 where
  offsetDims := [1]
  collapsedSliceDims := [0]
  operandBatchingDims := []
  startIndicesBatchingDims := []
  startIndexMap := [0]
  indexVectorDim := 1
  sliceSizes := ![1, 1024]
  wf := gather_S50257x1024_S8192x1_S8192x1024_1_0_n_n_0_1_11024_wf
def gather_S50257_S8192x1_S8192_n_0_n_n_0_1_1 : GatherDims S50257 S8192x1 S8192 where
  offsetDims := []
  collapsedSliceDims := [0]
  operandBatchingDims := []
  startIndicesBatchingDims := []
  startIndexMap := [0]
  indexVectorDim := 1
  sliceSizes := ![1]
  wf := gather_S50257_S8192x1_S8192_n_0_n_n_0_1_1_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_v30) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S8192x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34) S256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x8192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x8192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S256x8193.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S50257x1024 : Shape := ⟨2, ![50257, 1024]⟩
abbrev S50257 : Shape := ⟨1, ![50257]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩
abbrev S8192x8193 : Shape := ⟨2, ![8192, 8193]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .i32⟩
  | .hbm, ⟨3, _⟩ => ⟨S8192, .f32⟩
  | .hbm, ⟨4, _⟩ => ⟨S8192, .f32⟩
  | .hbm, ⟨5, _⟩ => ⟨S50257x1024, .f32⟩
  | .hbm, ⟨6, _⟩ => ⟨S50257, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x1024, .f32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192, .f32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x1024, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x8192, .f32⟩
  | .hbm, ⟨48, _⟩ => ⟨S1x8192, .f32⟩
  | .hbm, ⟨49, _⟩ => ⟨S8192x8192, .f32⟩
  | .hbm, ⟨50, _⟩ => ⟨S8192x8192, .f32⟩
  | .hbm, ⟨51, _⟩ => ⟨S8192x1, .i32⟩
  | .hbm, ⟨52, _⟩ => ⟨S1x8192, .i32⟩
  | .hbm, ⟨53, _⟩ => ⟨S8192x8192, .i32⟩
  | .hbm, ⟨54, _⟩ => ⟨S8192x8192, .i32⟩
  | .hbm, ⟨55, _⟩ => ⟨S8192x8192, .i1⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S1x8192, .f32⟩
  | .hbm, ⟨64, _⟩ => ⟨S8192x8192, .f32⟩
  | .hbm, ⟨65, _⟩ => ⟨S8192x8192, .f32⟩
  | .hbm, ⟨66, _⟩ => ⟨S8192x1, .f32⟩
  | .hbm, ⟨67, _⟩ => ⟨S8192x8193, .f32⟩
  | .hbm, ⟨68, _⟩ => ⟨S_, .i32⟩
  | .hbm, ⟨69, _⟩ => ⟨S8192, .i32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_call0_v0 : Ref sig .tc := ⟨.hbm, 57, rfl⟩
abbrev main_call0_v1 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x1024_S8192_d1 : S8192x1024.ReducesTo [1] S8192
  h_S_ : 0 < S_.numel
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  concatenates_S8192x1_S8192x8192_S8192x8193_d1 : Shape.Concatenates [S8192x1, S8192x8192] S8192x8193 1
  gather_S50257x1024_S8192x1_S8192x1024_1_0_n_n_0_1_11024_wf : GatherDims.WF S50257x1024 S8192x1 S8192x1024 [1] [0] [] [0] [] 1 ![1, 1024]
  gather_S50257_S8192x1_S8192_n_0_n_n_0_1_1_wf : GatherDims.WF S50257 S8192x1 S8192 [] [0] [] [0] [] 1 ![1]
  dot_S8192x1024_S8192x1024_S8192x8192_1_1_0_0_n_n_wf : DotDims.WF S8192x1024 S8192x1024 S8192x8192 [1] [1] [0] [0] [] []

variable [Facts₀]

def gather_S50257x1024_S8192x1_S8192x1024_1_0_n_n_0_1_11024 : GatherDims S50257x1024 S8192x1 S8192x1024 where
  offsetDims := [1]
  collapsedSliceDims := [0]
  operandBatchingDims := []
  startIndicesBatchingDims := []
  startIndexMap := [0]
  indexVectorDim := 1
  sliceSizes := ![1, 1024]
  wf := gather_S50257x1024_S8192x1_S8192x1024_1_0_n_n_0_1_11024_wf
def gather_S50257_S8192x1_S8192_n_0_n_n_0_1_1 : GatherDims S50257 S8192x1 S8192 where
  offsetDims := []
  collapsedSliceDims := [0]
  operandBatchingDims := []
  startIndicesBatchingDims := []
  startIndexMap := [0]
  indexVectorDim := 1
  sliceSizes := ![1]
  wf := gather_S50257_S8192x1_S8192_n_0_n_n_0_1_1_wf
def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.CoverBits.lean ====
/-
  The rectangles the kernel body stores through cover its output block.

  The body writes its [256, 8193] output block by seventeen stores: the true-class column through the
  rectangle of column 0, and, for each j < 16, one [256, 512] tile of sampled logits through the rectangle of
  columns 1 + 512·j … 512 + 512·j. Every column c of the block is column 0 or lies in exactly one tile
  (the tile (c − 1) / 512), and every row is in every rectangle, so each index of the block is in some
  store's rectangle. This is plain arithmetic on the two coordinates; it holds at every float instance, since
  only the rectangles of the stores enter, never their payloads.
-/
import proofs.«118683_j73057393705216_2_alg».proof.Proof.Gen.Kernel.Frame.RunA

set_option maxRecDepth 16384

noncomputable section

namespace Cert.Kernel.Cover

open Cert.Kernel Cert.Kernel.Gen
open Idealize.ShloMosaic Idealize.ShloMosaic.TcCoe Idealize.SL.Sem

variable {F : FTy → Type} [FloatOps F]

/-- Each index of the output block lies in the rectangle of one of the body's seventeen stores. -/
theorem cover (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S8192x1024 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S256x8193 .f32) (harg10 : arg10.IsWhole) (x0 : Vec F S256x1024 .bf16) (x1 : Vec F S256x1024 .bf16) (x2 : Vec F S8192x1024 .bf16) (x3 : Vec F S256x1 .i32) (x4 : Vec F S1x8192 .i32) (x5 : Vec F S256x1 .f32) (x6 : Vec F S256x1 .f32) (x7 : Vec F S1x8192 .f32) (x8 : Vec F S1x8192 .f32) (y : S256x8193.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5 x6 x7 x8).1, y ∈ pc.1.set := by
  have h0 : (y 0 : Nat) < 256 := (y 0).isLt
  have h1 : (y 1 : Nat) < 8193 := (y 1).isLt
  unfold kernelRun0_A
  dsimp only
  simp only [List.exists_mem_cons_iff, List.not_mem_nil, false_and, exists_false, or_false, Rect.mem_set_unit,
    Fin.forall_fin_two, Matrix.cons_val_zero, Matrix.cons_val_one, Matrix.head_cons]
  omega

end Cert.Kernel.Cover

end
-- ==== Proof.CoverIdeal.lean ====
/-
  The rectangles the kernel body stores through cover its output block.

  The body writes its [256, 8193] output block by seventeen stores: the true-class column through the
  rectangle of column 0, and, for each j < 16, one [256, 512] tile of sampled logits through the rectangle of
  columns 1 + 512·j … 512 + 512·j. Every column c of the block is column 0 or lies in exactly one tile
  (the tile (c − 1) / 512), and every row is in every rectangle, so each index of the block is in some
  store's rectangle. This is plain arithmetic on the two coordinates; it holds at every float instance, since
  only the rectangles of the stores enter, never their payloads.
-/
import proofs.«118683_j73057393705216_2_alg».proof.Proof.Gen.KernelIdeal.Frame.RunA

set_option maxRecDepth 16384

noncomputable section

namespace Cert.KernelIdeal.Cover

open Cert.KernelIdeal Cert.KernelIdeal.Gen
open Idealize.ShloMosaic Idealize.ShloMosaic.TcCoe Idealize.SL.Sem

variable {F : FTy → Type} [FloatOps F]

/-- Each index of the output block lies in the rectangle of one of the body's seventeen stores. -/
theorem cover (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S8192x1024 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S256x8193 .f32) (harg10 : arg10.IsWhole) (x0 : Vec F S256x1024 .bf16) (x1 : Vec F S256x1024 .bf16) (x2 : Vec F S8192x1024 .bf16) (x3 : Vec F S256x1 .i32) (x4 : Vec F S1x8192 .i32) (x5 : Vec F S256x1 .f32) (x6 : Vec F S256x1 .f32) (x7 : Vec F S1x8192 .f32) (x8 : Vec F S1x8192 .f32) (y : S256x8193.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5 x6 x7 x8).1, y ∈ pc.1.set := by
  have h0 : (y 0 : Nat) < 256 := (y 0).isLt
  have h1 : (y 1 : Nat) < 8193 := (y 1).isLt
  unfold kernelRun0_A
  dsimp only
  simp only [List.exists_mem_cons_iff, List.not_mem_nil, false_and, exists_false, or_false, Rect.mem_set_unit,
    Fin.forall_fin_two, Matrix.cons_val_zero, Matrix.cons_val_one, Matrix.head_cons]
  omega

end Cert.KernelIdeal.Cover

end
-- ==== Proof.Logits.lean ====
/-
  The sampled-softmax logits, as ONE function of the arrays the computation consumes.

  For a row `n` (a flattened position) and a column `c` of the result:
    column 0        is the true-class logit   (Σ_k a n k · tw n k + tb n) − log (tf n),
    column s + 1    is the sampled logit      (if tgt n = sid s then FILL else Σ_k a n k · sw s k + sb s) − log (sf s),
  where `a` is the activation row, `tw n` / `tb n` the weight row and bias of row `n`'s true class, `sw s` / `sb s`
  those of the `s`-th sampled class, `tf` / `sf` the expected counts, and FILL the finite stand-in for −∞ written
  where a sampled class coincides with the true one. All arithmetic is that of the extended reals; the sums are
  finite sums over the hidden axis, so neither their order nor their grouping matters, and no finiteness of the
  inputs is used anywhere.

  The row and column index types are parameters: the same definitions describe one block of rows and the whole array.
-/
import Idealize.ShloMosaic.PureOps.Ideal
import Idealize.ShloMosaic.Lib.ValueIdx

noncomputable section

open scoped BigOperators

namespace Cert.SampledLogits

open Idealize.ShloMosaic

/-- The value written where a sampled class is the row's true class: the f32 pattern of −1e37, read at `Ideal`. -/
def fill : EReal := Ideal.ofBits .f32 0xFCF0BDC2#32

/-- The true-class logit of row `n`: the dot product of the activation row with the true class's weight row, started
    from the f32 zero pattern, plus the class bias, minus the log of the expected count. -/
def trueLogit {R : Type} (a tw : R → Fin 1024 → EReal) (tb tf : R → EReal) (n : R) : EReal :=
  ((Ideal.ofBits .f32 0x00000000#32 + ∑ k : Fin 1024, a n k * tw n k) + tb n) - Ideal.log (tf n)

/-- The logit of row `n` against the `s`-th sampled class: the dot product with that class's weight row plus its
    bias, replaced by `fill` when the sampled class is the row's true class, minus the log of the expected count. -/
def sampleLogit {R C : Type} (a : R → Fin 1024 → EReal) (sw : C → Fin 1024 → EReal) (tgt : R → BitVec 32)
    (sid : C → BitVec 32) (sb sf : C → EReal) (n : R) (s : C) : EReal :=
  (if tgt n = sid s then fill else (∑ k : Fin 1024, a n k * sw s k) + sb s) - Ideal.log (sf s)

/-- The result at row `n`, column `c` of 8193: the true-class logit in column 0, the sampled logits after it. -/
def logitsAt {R : Type} (a tw : R → Fin 1024 → EReal) (sw : Fin 8192 → Fin 1024 → EReal) (tgt : R → BitVec 32)
    (sid : Fin 8192 → BitVec 32) (tb tf : R → EReal) (sb sf : Fin 8192 → EReal) (n : R) (c : Fin 8193) : EReal :=
  if h : c.val = 0 then trueLogit a tw tb tf n
  else sampleLogit a sw tgt sid sb sf n ⟨c.val - 1, by have := c.isLt; omega⟩

theorem logitsAt_zero {R : Type} (a tw : R → Fin 1024 → EReal) (sw : Fin 8192 → Fin 1024 → EReal) (tgt : R → BitVec 32)
    (sid : Fin 8192 → BitVec 32) (tb tf : R → EReal) (sb sf : Fin 8192 → EReal) (n : R) (c : Fin 8193) (h : c.val = 0) :
    logitsAt a tw sw tgt sid tb tf sb sf n c = trueLogit a tw tb tf n := by
  unfold logitsAt; rw [dif_pos h]

theorem logitsAt_succ {R : Type} (a tw : R → Fin 1024 → EReal) (sw : Fin 8192 → Fin 1024 → EReal) (tgt : R → BitVec 32)
    (sid : Fin 8192 → BitVec 32) (tb tf : R → EReal) (sb sf : Fin 8192 → EReal) (n : R) (c : Fin 8193) (s : Fin 8192)
    (h : c.val = s.val + 1) :
    logitsAt a tw sw tgt sid tb tf sb sf n c = sampleLogit a sw tgt sid sb sf n s := by
  unfold logitsAt; rw [dif_neg (by omega)]
  congr 1; exact Fin.ext (by simp [h])

end Cert.SampledLogits

end
-- ==== Proof.TileValue.lean ====
/-
  The kernel body's two pure values read at one index, at the exact (extended-real) arithmetic.

  The true-class column: at row `r` it is the sum over the hidden axis of the products of the activation row with the
  true class's weight row, started from the f32 zero pattern, plus the bias, minus the log of the expected count.
  One sampled tile of 512 classes: at `(r, q)` it is the sum over the hidden axis of the products of the activation row
  with the `q`-th sampled class's weight row plus its bias, replaced by the fill value where the row's target word
  equals the sampled class's word, minus the log of that class's expected count.

  Each is read operation by operation: a cast to the same shape is the identity, a change of float format is the
  identity, a lane sum is the finite sum of the row, a product into a zero accumulator is the finite sum over the
  contracted axis, a one-row or one-column broadcast reads the row or column, and a select on an equality test of two
  words is the `if` on their equality.
-/
import proofs.«118683_j73057393705216_2_alg».proof.Proof.Gen.KernelIdeal.Skeleton
import proofs.«118683_j73057393705216_2_alg».proof.Proof.Logits
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx Cert.SampledLogits

namespace Cert.KernelIdeal.TileValue

open Cert.KernelIdeal Cert.KernelIdeal.Gen

/-- The sum over the hidden axis of a 256 × 1024 array, read at row `r`: the finite sum of the row's entries. -/
private theorem laneSum_apply (src : FVec Ideal S256x1024 .f32) (h : S256x1024.Reduces [1] S256) (hφ : FKind.Formats .f32)
    (hacc : (0x00000000#32 : BitVec 32) = 0x00000000#32) (r : Fin 256) :
    multiReduction (F := Ideal) .add [1] S256 src 0x00000000#32 h hφ hacc (ix1 r) = ∑ k : Fin 1024, src (ix2 r k) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- A column of 256 entries viewed as a 256 × 1 array reads entry `r` at `(r, 0)`. -/
private theorem colCast_apply {α : Type} (x : S256.Idx → α) (h : S256.ShapeCasts S256x1) (r : Fin 256) :
    shapeCast S256x1 x h (ix2 r (0 : Fin 1)) = x (ix1 r) :=
  shapeCast_apply x h _ _ (by
    rw [Shape.rowMajor_val_two, Shape.rowMajor_val_one]
    show r.val = r.val * 1 + 0
    omega)

theorem true_apply (v0 v2 : Vec Ideal S256x1024 .bf16) (v9 v12 : Vec Ideal S256x1 .f32) (r : Fin 256) :
    k0_pay3 (F := Ideal) v0 v2 v9 v12 (ix2 r 0)
      = trueLogit (fun (r : Fin 256) (k : Fin 1024) => v0 (ix2 r k)) (fun (r : Fin 256) (k : Fin 1024) => v2 (ix2 r k))
          (fun (r : Fin 256) => v9 (ix2 r 0)) (fun (r : Fin 256) => v12 (ix2 r 0)) r := by
  unfold k0_pay3 k0_pay2 trueLogit
  simp only [shapeCast_self]
  rw [Ideal.ofBits_zero_f32, zero_add]
  refine (subf_apply _ _ _).trans ?_
  refine congrArg₂ (· - ·) ?_ rfl
  refine (addf_apply _ _ _).trans ?_
  refine congrArg (· + v9 (ix2 r 0)) ?_
  refine (colCast_apply _ _ r).trans ?_
  refine (laneSum_apply _ _ _ _ r).trans ?_
  rfl

/-- A 256 × 1 column laid along 512 columns reads, at `(r, q)`, the column's entry `r`. -/
private theorem colBroadcast_apply {α : Type} (v : S256x1.Idx → α) (h : S256x1.Broadcasts S256x512) (r : Fin 256) (q : Fin 512) :
    broadcastTo S256x512 v h (ix2 r q) = v (ix2 r (0 : Fin 1)) := by
  refine broadcastTo_apply v h (ix2 r q) (ix2 r (0 : Fin 1)) fun ax => ?_
  match ax with
  | ⟨0, _⟩ => rfl
  | ⟨1, _⟩ => rfl

/-- A select on the equality test of two 32-bit words is the `if` on their equality. -/
private theorem select_cmpi_eq {α : Type} (x y : BitVec 32) (a b : α) :
    Scalar.select (IntOp.cmpi .eq x y) a b = if x = y then a else b := by
  have hc : IntOp.cmpi .eq x y = BitVec.ofBool (x == y) := rfl
  rw [hc]
  by_cases h : x = y
  · have hb : (x == y) = true := beq_iff_eq.mpr h
    rw [hb, if_pos h]; exact select_one a b
  · have hb : (x == y) = false := beq_eq_false_iff_ne.mpr h
    rw [hb, if_neg h]; exact select_zero a b

/-- The first operand's row coordinate at an output index is the output's row. -/
private theorem dot_lhs_0 (i : S256x512.Idx) (c : dot_S256x1024_S512x1024_S256x512_1_1_0_0_n_n.contr.Idx) : (dot_S256x1024_S512x1024_S256x512_1_1_0_0_n_n.lhsIdx i c 0).val = (i 0).val := by
  unfold DotDims.lhsIdx
  rw [dif_neg (show ¬(0 : Fin S256x1024.rank) ∈ dot_S256x1024_S512x1024_S256x512_1_1_0_0_n_n.lhsBatch by decide),
    dif_pos (show (0 : Fin S256x1024.rank) ∈ dot_S256x1024_S512x1024_S256x512_1_1_0_0_n_n.lhsNonContracting by decide)]
  rfl
/-- The first operand's hidden coordinate is the contraction index. -/
private theorem dot_lhs_1 (i : S256x512.Idx) (c : dot_S256x1024_S512x1024_S256x512_1_1_0_0_n_n.contr.Idx) : (dot_S256x1024_S512x1024_S256x512_1_1_0_0_n_n.lhsIdx i c 1).val = (c ⟨0, by decide⟩).val :=
  dot_S256x1024_S512x1024_S256x512_1_1_0_0_n_n.lhsIdx_val_of_single rfl i c
/-- The second operand's row coordinate at an output index is the output's column. -/
private theorem dot_rhs_0 (i : S256x512.Idx) (c : dot_S256x1024_S512x1024_S256x512_1_1_0_0_n_n.contr.Idx) : (dot_S256x1024_S512x1024_S256x512_1_1_0_0_n_n.rhsIdx i c 0).val = (i 1).val := by
  unfold DotDims.rhsIdx
  rw [dif_neg (show ¬(0 : Fin S512x1024.rank) ∈ dot_S256x1024_S512x1024_S256x512_1_1_0_0_n_n.rhsBatch by decide),
    dif_pos (show (0 : Fin S512x1024.rank) ∈ dot_S256x1024_S512x1024_S256x512_1_1_0_0_n_n.rhsNonContracting by decide)]
  rfl
/-- The second operand's hidden coordinate is the contraction index. -/
private theorem dot_rhs_1 (i : S256x512.Idx) (c : dot_S256x1024_S512x1024_S256x512_1_1_0_0_n_n.contr.Idx) : (dot_S256x1024_S512x1024_S256x512_1_1_0_0_n_n.rhsIdx i c 1).val = (c ⟨0, by decide⟩).val :=
  dot_S256x1024_S512x1024_S256x512_1_1_0_0_n_n.rhsIdx_val_of_single rfl i c

/-- The 256 × 1024 by 512 × 1024 product contracted over the hidden axis of both, into a zero accumulator, read at
    `(r, q)`: the finite sum over the hidden axis of the products of row `r` of the first with row `q` of the second. -/
private theorem dot_apply (lhs : FVec Ideal S256x1024 .bf16) (rhs : FVec Ideal S512x1024 .bf16) (r : Fin 256) (q : Fin 512) :
    matmul (F := Ideal) dot_S256x1024_S512x1024_S256x512_1_1_0_0_n_n none lhs rhs (constant S256x512 .f32 0x00000000#32) (ix2 r q)
      = ∑ k : Fin 1024, lhs (ix2 r k) * rhs (ix2 q k) := by
  refine (Ideal.matmul_constant_zero_apply dot_S256x1024_S512x1024_S256x512_1_1_0_0_n_n none lhs rhs (ix2 r q)).trans ?_
  rw [← Equiv.sum_comp (contrEquiv1 dot_S256x1024_S512x1024_S256x512_1_1_0_0_n_n 1024 rfl rfl).symm]
  refine Finset.sum_congr rfl fun k _ => ?_
  have hk := contrEquiv1_symm_val dot_S256x1024_S512x1024_S256x512_1_1_0_0_n_n 1024 rfl rfl k
  have el : dot_S256x1024_S512x1024_S256x512_1_1_0_0_n_n.lhsIdx (ix2 r q) ((contrEquiv1 dot_S256x1024_S512x1024_S256x512_1_1_0_0_n_n 1024 rfl rfl).symm k) = ix2 r k :=
    funext fun a => Fin.ext (by
      match a with
      | ⟨0, _⟩ => exact dot_lhs_0 _ _
      | ⟨1, _⟩ => exact (dot_lhs_1 _ _).trans hk)
  have er : dot_S256x1024_S512x1024_S256x512_1_1_0_0_n_n.rhsIdx (ix2 r q) ((contrEquiv1 dot_S256x1024_S512x1024_S256x512_1_1_0_0_n_n 1024 rfl rfl).symm k) = ix2 q k :=
    funext fun a => Fin.ext (by
      match a with
      | ⟨0, _⟩ => exact dot_rhs_0 _ _
      | ⟨1, _⟩ => exact (dot_rhs_1 _ _).trans hk)
  rw [el, er]

theorem tile_apply (v1 : FVec Ideal S256x1024 .bf16) (v18 : IVec S256x1 32) (sw : Vec Ideal S512x1024 .bf16)
    (sid : Vec Ideal S1x512 .i32) (sb sf : Vec Ideal S1x512 .f32) (r : Fin 256) (q : Fin 512) :
    k0_pay8 (F := Ideal) v1 v18 sw sid sb sf (ix2 r q)
      = sampleLogit (fun (r : Fin 256) (k : Fin 1024) => v1 (ix2 r k)) (fun (q : Fin 512) (k : Fin 1024) => sw (ix2 q k))
          (fun (r : Fin 256) => v18 (ix2 r 0)) (fun (q : Fin 512) => sid (ix2 0 q)) (fun (q : Fin 512) => sb (ix2 0 q))
          (fun (q : Fin 512) => sf (ix2 0 q)) r q := by
  unfold k0_pay8 sampleLogit
  simp only [shapeCast_self]
  refine (subf_apply _ _ _).trans ?_
  refine congrArg₂ (· - ·) ?_ ?_
  · refine (select_apply _ _ _ _).trans ?_
    refine (select_cmpi_eq _ _ _ _).trans ?_
    have eA : broadcastTo S256x512 v18 broadcasts_S256x1_S256x512 (ix2 r q) = v18 (ix2 r 0) :=
      colBroadcast_apply v18 _ r q
    have eB : broadcastTo S256x512 sid broadcasts_S1x512_S256x512 (ix2 r q) = sid (ix2 0 q) :=
      broadcastTo_1b_ab_apply _ _ r q
    refine if_congr (by rw [eA, eB]) rfl ?_
    refine (addf_apply _ _ _).trans ?_
    exact congrArg₂ (· + ·) (dot_apply v1 sw r q) (broadcastTo_1b_ab_apply _ _ r q)
  · exact broadcastTo_1b_ab_apply _ _ r q

end Cert.KernelIdeal.TileValue

end
-- ==== Proof.BlockValue.lean ====
/-
  The kernel body's seventeen stores, read back, are ONE function of the block index: the logits of the block's rows.

  The body writes its 256 × 8193 block of logits by seventeen stores: the true-class column through the rectangle of
  column 0 and, for each of sixteen tiles of 512 sampled classes starting at class o = 0, 512, …, 7680, one 256 × 512
  tile through the rectangle of columns o + 1 … o + 512. Whatever the cut of the body's text into named values, each
  tile's value is the same function of six operands: the activation block, the target column, and the rows o … o + 511
  of the sampled weights, words, biases and expected counts. Read at a local index (r, q) it is the sampled logit of
  row r against class o + q, which is the block's logit at (r, o + 1 + q) — the index the tile's rectangle places
  (r, q) at; the true-class column read at (r, 0) is the block's logit at (r, 0). Since the seventeen rectangles cover
  the block, the stores read back at any (r, c) give the logit of row r in column c.
-/
import proofs.«118683_j73057393705216_2_alg».proof.Proof.Gen.KernelIdeal.Frame.RunA
import proofs.«118683_j73057393705216_2_alg».proof.Proof.Logits
import proofs.«118683_j73057393705216_2_alg».proof.Proof.TileValue
import proofs.«118683_j73057393705216_2_alg».proof.Proof.CoverIdeal
import Idealize.ShloMosaic.Lib.Pipeline.Value
import Idealize.ShloMosaic.Lib.ValueIdx
import Idealize.ShloMosaic.Lib.Tactic

set_option maxRecDepth 16384

noncomputable section

namespace Cert.KernelIdeal.BlockValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.SampledLogits Cert.KernelIdeal Cert.KernelIdeal.Gen

/-- The two-coordinate zero offset, however spelt, is the constant zero. -/
theorem hz2 : (![0, 0] : Fin 2 → Nat) = fun _ => 0 := funext fun a => by fin_cases a <;> rfl

/-- The block's logits as ONE function of the block index `y = (row, column)`. -/
def G (x0 x1 : Vec Ideal S256x1024 .bf16) (x2 : Vec Ideal S8192x1024 .bf16) (x3 : Vec Ideal S256x1 .i32)
    (x4 : Vec Ideal S1x8192 .i32) (x5 x6 : Vec Ideal S256x1 .f32) (x7 x8 : Vec Ideal S1x8192 .f32)
    (y : S256x8193.Idx) : EReal :=
  logitsAt (fun (r : Fin 256) (k : Fin 1024) => x0 (ix2 r k)) (fun (r : Fin 256) (k : Fin 1024) => x1 (ix2 r k)) (fun (s : Fin 8192) (k : Fin 1024) => x2 (ix2 s k)) (fun (r : Fin 256) => x3 (ix2 r 0)) (fun (s : Fin 8192) => x4 (ix2 0 s)) (fun (r : Fin 256) => x5 (ix2 r 0)) (fun (r : Fin 256) => x6 (ix2 r 0)) (fun (s : Fin 8192) => x7 (ix2 0 s)) (fun (s : Fin 8192) => x8 (ix2 0 s)) (y 0) (y 1)

/-- A sampled logit read through a tile's loads is the sampled logit of the whole arrays at the tile's class. -/
theorem sample_at (x0 : Vec Ideal S256x1024 .bf16) (x2 : Vec Ideal S8192x1024 .bf16) (x3 : Vec Ideal S256x1 .i32)
    (x4 : Vec Ideal S1x8192 .i32) (x7 x8 : Vec Ideal S1x8192 .f32)
    (sw : Vec Ideal S512x1024 .bf16) (sid : Vec Ideal S1x512 .i32) (sb sf : Vec Ideal S1x512 .f32)
    (r n : Fin 256) (q : Fin 512) (s : Fin 8192) (hn : n = r)
    (hsw : ∀ k : Fin 1024, sw (ix2 q k) = x2 (ix2 s k)) (hsid : sid (ix2 0 q) = x4 (ix2 0 s))
    (hsb : sb (ix2 0 q) = x7 (ix2 0 s)) (hsf : sf (ix2 0 q) = x8 (ix2 0 s)) :
    sampleLogit (fun (r : Fin 256) (k : Fin 1024) => x0 (ix2 r k)) (fun (q : Fin 512) (k : Fin 1024) => sw (ix2 q k))
        (fun (r : Fin 256) => x3 (ix2 r 0)) (fun (q : Fin 512) => sid (ix2 0 q)) (fun (q : Fin 512) => sb (ix2 0 q))
        (fun (q : Fin 512) => sf (ix2 0 q)) r q
      = sampleLogit (fun (r : Fin 256) (k : Fin 1024) => x0 (ix2 r k)) (fun (s : Fin 8192) (k : Fin 1024) => x2 (ix2 s k))
        (fun (r : Fin 256) => x3 (ix2 r 0)) (fun (s : Fin 8192) => x4 (ix2 0 s)) (fun (s : Fin 8192) => x7 (ix2 0 s))
        (fun (s : Fin 8192) => x8 (ix2 0 s)) n s := by
  subst hn
  unfold sampleLogit
  simp only [hsw, hsid, hsb, hsf]

/-- One tile of 512 sampled classes starting at class `o`, stored through the rectangle of columns `o + 1 … o + 512`:
    its value at a local index is the block's logit at the index the rectangle places it at. -/
theorem tile_piece (x0 x1 : Vec Ideal S256x1024 .bf16) (x2 : Vec Ideal S8192x1024 .bf16) (x3 : Vec Ideal S256x1 .i32)
    (x4 : Vec Ideal S1x8192 .i32) (x5 x6 : Vec Ideal S256x1 .f32) (x7 x8 : Vec Ideal S1x8192 .f32)
    (o : Nat) (ho : o + 512 ≤ 8192)
    (inb10 : ∀ a, (![0, o + 1] : Fin 2 → Nat) a + S256x512.size a ≤ S256x8193.size a)
    (inb3 : ∀ a, (![o, 0] : Fin 2 → Nat) a + S512x1024.size a ≤ S8192x1024.size a)
    (inb5 : ∀ a, (![0, o] : Fin 2 → Nat) a + S1x512.size a ≤ S1x8192.size a)
    (x : (Rect.unit (s := S256x8193) ![0, o + 1] S256x512.size inb10).shape.Idx) :
    k0_pay8 (F := Ideal) x0 x3 (View.ld x2 (Rect.unit (s := S8192x1024) ![o, 0] S512x1024.size inb3))
        (View.ld x4 (Rect.unit (s := S1x8192) ![0, o] S1x512.size inb5)) (View.ld x7 (Rect.unit (s := S1x8192) ![0, o] S1x512.size inb5))
        (View.ld x8 (Rect.unit (s := S1x8192) ![0, o] S1x512.size inb5)) x
      = G x0 x1 x2 x3 x4 x5 x6 x7 x8 ((Rect.unit (s := S256x8193) ![0, o + 1] S256x512.size inb10).emb x) := by
  obtain ⟨r, q, rfl⟩ : ∃ (r : Fin 256) (q : Fin 512), x = ix2 r q := ⟨x 0, x 1, eq_ix2 x⟩
  refine (TileValue.tile_apply x0 x3 _ _ _ _ r q).trans ?_
  unfold G
  refine Eq.symm ((logitsAt_succ _ _ _ _ _ _ _ _ _ _ _ ⟨o + q.val, by omega⟩
    (by show (o + 1) + 1 * q.val = o + q.val + 1; omega)).trans (Eq.symm ?_))
  refine sample_at x0 x2 x3 x4 x7 x8 _ _ _ _ r _ q ⟨o + q.val, by omega⟩
    (Fin.ext (by show 0 + 1 * r.val = r.val; omega)) (fun k => ?_) ?_ ?_ ?_
  · refine congrArg x2 (funext fun a => Fin.ext ?_)
    match a with
    | ⟨0, _⟩ => show o + 1 * q.val = o + q.val; omega
    | ⟨1, _⟩ => show 0 + 1 * k.val = k.val; omega
  · refine congrArg x4 (funext fun a => Fin.ext ?_)
    match a with
    | ⟨0, _⟩ => rfl
    | ⟨1, _⟩ => show o + 1 * q.val = o + q.val; omega
  · refine congrArg x7 (funext fun a => Fin.ext ?_)
    match a with
    | ⟨0, _⟩ => rfl
    | ⟨1, _⟩ => show o + 1 * q.val = o + q.val; omega
  · refine congrArg x8 (funext fun a => Fin.ext ?_)
    match a with
    | ⟨0, _⟩ => rfl
    | ⟨1, _⟩ => show o + 1 * q.val = o + q.val; omega

/-- The same-shape cast of the activation block is the identity. -/
theorem pay2_eq (v : Vec Ideal S256x1024 .bf16) : k0_pay2 (F := Ideal) v = v := by
  unfold k0_pay2; exact shapeCast_self _ _
/-- The same-shape cast of the target column is the identity. -/
theorem pay4_eq (v : Vec Ideal S256x1 .i32) : k0_pay4 (F := Ideal) v = v := by
  unfold k0_pay4; exact shapeCast_self _ _

/-- Open every payload of the body and drop the same-shape casts: each tile's value, however the body's text is cut
    into payloads, is then the same term of its six operands. -/
local macro "open_pays" : tactic => `(tactic| simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, shapeCast_self])

/-! Each tile's payload, in the cut the body's text gives it, is the one tile function of its six operands. -/
theorem cut36 (v1 : FVec Ideal S256x1024 .bf16) (v18 : IVec S256x1 32) (a : Vec Ideal S512x1024 .bf16) (b : Vec Ideal S1x512 .i32) (c d : Vec Ideal S1x512 .f32) :
    k0_pay36 (F := Ideal) v1 v18 a b c d = k0_pay8 (F := Ideal) v1 v18 a b c d := by open_pays
theorem cut30 (v1 : FVec Ideal S256x1024 .bf16) (v18 : IVec S256x1 32) (a : Vec Ideal S512x1024 .bf16) (b : Vec Ideal S1x512 .i32) (c d : Vec Ideal S1x512 .f32) :
    k0_pay30 (F := Ideal) v1 v18 a b c d = k0_pay8 (F := Ideal) v1 v18 a b c d := by open_pays
theorem cut25 (v1 : FVec Ideal S256x1024 .bf16) (v18 : IVec S256x1 32) (a : Vec Ideal S512x1024 .bf16) (b : Vec Ideal S1x512 .i32) (c d : Vec Ideal S1x512 .f32) :
    k0_pay25 (F := Ideal) v1 v18 a b c d = k0_pay8 (F := Ideal) v1 v18 a b c d := by open_pays
theorem cut24 (v1 : FVec Ideal S256x1024 .bf16) (v18 : IVec S256x1 32) (a : Vec Ideal S512x1024 .bf16) (b : Vec Ideal S1x512 .i32) (c d : Vec Ideal S1x512 .f32) :
    k0_pay24 (F := Ideal) v1 v18 a b c d = k0_pay8 (F := Ideal) v1 v18 a b c d := by open_pays
theorem cut23 (v1 : FVec Ideal S256x1024 .bf16) (v18 : IVec S256x1 32) (a : Vec Ideal S512x1024 .bf16) (b : Vec Ideal S1x512 .i32) (c d : Vec Ideal S1x512 .f32) :
    k0_pay23 (F := Ideal) v1 v18 a b c d = k0_pay8 (F := Ideal) v1 v18 a b c d := by open_pays
theorem cut22 (v1 : FVec Ideal S256x1024 .bf16) (v18 : IVec S256x1 32) (a : Vec Ideal S512x1024 .bf16) (b : Vec Ideal S1x512 .i32) (c d : Vec Ideal S1x512 .f32) :
    k0_pay22 (F := Ideal) v1 v18 a b c d = k0_pay8 (F := Ideal) v1 v18 a b c d := by open_pays
theorem cut18 (v1 : FVec Ideal S256x1024 .bf16) (v18 : IVec S256x1 32) (a : Vec Ideal S512x1024 .bf16) (b : Vec Ideal S1x512 .i32) (c d : Vec Ideal S1x512 .f32) :
    k0_pay18 (F := Ideal) v1 v18 a b c d = k0_pay8 (F := Ideal) v1 v18 a b c d := by open_pays
theorem cut13 (v1 : FVec Ideal S256x1024 .bf16) (v18 : IVec S256x1 32) (a : Vec Ideal S512x1024 .bf16) (b : Vec Ideal S1x512 .i32) (c d : Vec Ideal S1x512 .f32) :
    k0_pay13 (F := Ideal) v1 v18 a b c d = k0_pay8 (F := Ideal) v1 v18 a b c d := by open_pays
theorem cut1 (v1 : FVec Ideal S256x1024 .bf16) (v18 : IVec S256x1 32) (a : Vec Ideal S512x1024 .bf16) (b : Vec Ideal S1x512 .i32) (c d : Vec Ideal S1x512 .f32) :
    k0_pay1 (F := Ideal) v1 v18 (k0_pay37 a) (k0_pay38 b) c d = k0_pay8 (F := Ideal) v1 v18 a b c d := by open_pays
theorem cut35 (v1 : FVec Ideal S256x1024 .bf16) (v18 : IVec S256x1 32) (a : Vec Ideal S512x1024 .bf16) (b : Vec Ideal S1x512 .i32) (c d : Vec Ideal S1x512 .f32) :
    k0_pay35 (F := Ideal) v1 v18 (k0_pay31 a) (k0_pay32 b) (k0_pay33 c) (k0_pay34 d) (constant S256x512 .f32 0x00000000#32)
      = k0_pay8 (F := Ideal) v1 v18 a b c d := by open_pays
theorem cut29 (v1 : FVec Ideal S256x1024 .bf16) (v18 : IVec S256x1 32) (a : Vec Ideal S512x1024 .bf16) (b : Vec Ideal S1x512 .i32) (c d : Vec Ideal S1x512 .f32) :
    k0_pay29 (F := Ideal) (k0_pay26 d) (k0_pay27 v1 a c) (k0_pay28 (F := Ideal) v18 b) = k0_pay8 (F := Ideal) v1 v18 a b c d := by open_pays
theorem cut21 (v1 : FVec Ideal S256x1024 .bf16) (v18 : IVec S256x1 32) (a : Vec Ideal S512x1024 .bf16) (b : Vec Ideal S1x512 .i32) (c d : Vec Ideal S1x512 .f32) :
    k0_pay21 (F := Ideal) v1 v18 (k0_pay19 a) (k0_pay20 b) c d = k0_pay8 (F := Ideal) v1 v18 a b c d := by open_pays
theorem cut17 (v1 : FVec Ideal S256x1024 .bf16) (v18 : IVec S256x1 32) (a : Vec Ideal S512x1024 .bf16) (b : Vec Ideal S1x512 .i32) (c d : Vec Ideal S1x512 .f32) :
    k0_pay17 (F := Ideal) v1 v18 (k0_pay14 a) (k0_pay15 b) (k0_pay16 c) d = k0_pay8 (F := Ideal) v1 v18 a b c d := by open_pays
theorem cut12 (v1 : FVec Ideal S256x1024 .bf16) (v18 : IVec S256x1 32) (a : Vec Ideal S512x1024 .bf16) (b : Vec Ideal S1x512 .i32) (c d : Vec Ideal S1x512 .f32) :
    k0_pay12 (F := Ideal) v18 (k0_pay9 b) (k0_pay10 d) (k0_pay11 v1 a c) = k0_pay8 (F := Ideal) v1 v18 a b c d := by open_pays
theorem cut7 (v0 : Vec Ideal S256x1024 .bf16) (v17 : Vec Ideal S256x1 .i32) (a : Vec Ideal S512x1024 .bf16) (b : Vec Ideal S1x512 .i32) (c d : Vec Ideal S1x512 .f32) :
    k0_pay7 (F := Ideal) (k0_pay5 d) (k0_pay6 v0 v17 a b c) = k0_pay8 (F := Ideal) v0 v17 a b c d := by open_pays

/-- The true-class column, stored through the rectangle of column 0: its value at a local index is the block's logit at
    the index the rectangle places it at. -/
theorem true_piece (x0 x1 : Vec Ideal S256x1024 .bf16) (x2 : Vec Ideal S8192x1024 .bf16) (x3 : Vec Ideal S256x1 .i32)
    (x4 : Vec Ideal S1x8192 .i32) (x5 x6 : Vec Ideal S256x1 .f32) (x7 x8 : Vec Ideal S1x8192 .f32)
    (inb10 : ∀ a, (![0, 0] : Fin 2 → Nat) a + S256x1.size a ≤ S256x8193.size a)
    (x : (Rect.unit (s := S256x8193) ![0, 0] S256x1.size inb10).shape.Idx) :
    k0_pay3 (F := Ideal) x0 x1 x5 x6 x
      = G x0 x1 x2 x3 x4 x5 x6 x7 x8 ((Rect.unit (s := S256x8193) ![0, 0] S256x1.size inb10).emb x) := by
  obtain ⟨r, u, rfl⟩ : ∃ (r : Fin 256) (u : Fin 1), x = ix2 r u := ⟨x 0, x 1, eq_ix2 x⟩
  obtain rfl : u = 0 := Fin.eq_zero u
  refine (TileValue.true_apply x0 x1 x5 x6 r).trans ?_
  unfold G
  refine Eq.symm ((logitsAt_zero _ _ _ _ _ _ _ _ _ _ _ (by show 0 + 1 * 0 = 0; omega)).trans ?_)
  exact congrArg (trueLogit _ _ _ _) (Fin.ext (by show 0 + 1 * r.val = r.val; omega))

/-- Every store of the body — sixteen tiles and the true-class column — holds, at each local index, the block's logit at
    the index its rectangle places it at. -/
theorem pieces (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S8192x1024 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S256x8193 .f32) (harg10 : arg10.IsWhole) (x0 : Vec Ideal S256x1024 .bf16) (x1 : Vec Ideal S256x1024 .bf16) (x2 : Vec Ideal S8192x1024 .bf16) (x3 : Vec Ideal S256x1 .i32) (x4 : Vec Ideal S1x8192 .i32) (x5 : Vec Ideal S256x1 .f32) (x6 : Vec Ideal S256x1 .f32) (x7 : Vec Ideal S1x8192 .f32) (x8 : Vec Ideal S1x8192 .f32) :
    ∀ p ∈ (kernelRun0_A (F := Ideal) c i arg1 harg1 arg2 harg2 arg3 harg3 arg4 harg4 arg5 harg5 arg6 harg6 arg7 harg7 arg8 harg8 arg9 harg9 arg10 harg10 x0 x1 x2 x3 x4 x5 x6 x7 x8).1, ∀ x : p.1.shape.Idx, p.2 x = G x0 x1 x2 x3 x4 x5 x6 x7 x8 (p.1.emb x) := by
  unfold kernelRun0_A
  dsimp only
  sl_unfold_run_names
  simp only [View.readAt_eq_ld, harg1.read_unread, harg2.read_unread, harg3.read_unread, harg4.read_unread,
    harg5.read_unread, harg6.read_unread, harg7.read_unread, harg8.read_unread, harg9.read_unread,
    View.ld_unit_zero (S := S256x1024) hz2, View.ld_unit_zero (S := S256x1) hz2, pay2_eq, pay4_eq,
    cut1, cut36, cut35, cut30, cut29, cut25, cut24, cut23, cut22, cut21, cut18, cut17, cut13, cut12, cut7]
  intro p hp
  simp only [List.mem_cons, List.not_mem_nil, or_false] at hp
  rcases hp with rfl | rfl | rfl | rfl | rfl | rfl | rfl | rfl | rfl | rfl | rfl | rfl | rfl | rfl | rfl | rfl | rfl
  · exact tile_piece x0 x1 x2 x3 x4 x5 x6 x7 x8 7680 (by omega) Facts₀.inb_S256x8193_S256x512_0_7681
      Facts₀.inb_S8192x1024_S512x1024_7680_0 Facts₀.inb_S1x8192_S1x512_0_7680
  · exact tile_piece x0 x1 x2 x3 x4 x5 x6 x7 x8 7168 (by omega) Facts₀.inb_S256x8193_S256x512_0_7169
      Facts₀.inb_S8192x1024_S512x1024_7168_0 Facts₀.inb_S1x8192_S1x512_0_7168
  · exact tile_piece x0 x1 x2 x3 x4 x5 x6 x7 x8 6656 (by omega) Facts₀.inb_S256x8193_S256x512_0_6657
      Facts₀.inb_S8192x1024_S512x1024_6656_0 Facts₀.inb_S1x8192_S1x512_0_6656
  · exact tile_piece x0 x1 x2 x3 x4 x5 x6 x7 x8 6144 (by omega) Facts₀.inb_S256x8193_S256x512_0_6145
      Facts₀.inb_S8192x1024_S512x1024_6144_0 Facts₀.inb_S1x8192_S1x512_0_6144
  · exact tile_piece x0 x1 x2 x3 x4 x5 x6 x7 x8 5632 (by omega) Facts₀.inb_S256x8193_S256x512_0_5633
      Facts₀.inb_S8192x1024_S512x1024_5632_0 Facts₀.inb_S1x8192_S1x512_0_5632
  · exact tile_piece x0 x1 x2 x3 x4 x5 x6 x7 x8 5120 (by omega) Facts₀.inb_S256x8193_S256x512_0_5121
      Facts₀.inb_S8192x1024_S512x1024_5120_0 Facts₀.inb_S1x8192_S1x512_0_5120
  · exact tile_piece x0 x1 x2 x3 x4 x5 x6 x7 x8 4608 (by omega) Facts₀.inb_S256x8193_S256x512_0_4609
      Facts₀.inb_S8192x1024_S512x1024_4608_0 Facts₀.inb_S1x8192_S1x512_0_4608
  · exact tile_piece x0 x1 x2 x3 x4 x5 x6 x7 x8 4096 (by omega) Facts₀.inb_S256x8193_S256x512_0_4097
      Facts₀.inb_S8192x1024_S512x1024_4096_0 Facts₀.inb_S1x8192_S1x512_0_4096
  · exact tile_piece x0 x1 x2 x3 x4 x5 x6 x7 x8 3584 (by omega) Facts₀.inb_S256x8193_S256x512_0_3585
      Facts₀.inb_S8192x1024_S512x1024_3584_0 Facts₀.inb_S1x8192_S1x512_0_3584
  · exact tile_piece x0 x1 x2 x3 x4 x5 x6 x7 x8 3072 (by omega) Facts₀.inb_S256x8193_S256x512_0_3073
      Facts₀.inb_S8192x1024_S512x1024_3072_0 Facts₀.inb_S1x8192_S1x512_0_3072
  · exact tile_piece x0 x1 x2 x3 x4 x5 x6 x7 x8 2560 (by omega) Facts₀.inb_S256x8193_S256x512_0_2561
      Facts₀.inb_S8192x1024_S512x1024_2560_0 Facts₀.inb_S1x8192_S1x512_0_2560
  · exact tile_piece x0 x1 x2 x3 x4 x5 x6 x7 x8 2048 (by omega) Facts₀.inb_S256x8193_S256x512_0_2049
      Facts₀.inb_S8192x1024_S512x1024_2048_0 Facts₀.inb_S1x8192_S1x512_0_2048
  · exact tile_piece x0 x1 x2 x3 x4 x5 x6 x7 x8 1536 (by omega) Facts₀.inb_S256x8193_S256x512_0_1537
      Facts₀.inb_S8192x1024_S512x1024_1536_0 Facts₀.inb_S1x8192_S1x512_0_1536
  · exact tile_piece x0 x1 x2 x3 x4 x5 x6 x7 x8 1024 (by omega) Facts₀.inb_S256x8193_S256x512_0_1025
      Facts₀.inb_S8192x1024_S512x1024_1024_0 Facts₀.inb_S1x8192_S1x512_0_1024
  · exact tile_piece x0 x1 x2 x3 x4 x5 x6 x7 x8 512 (by omega) Facts₀.inb_S256x8193_S256x512_0_513
      Facts₀.inb_S8192x1024_S512x1024_512_0 Facts₀.inb_S1x8192_S1x512_0_512
  · exact tile_piece x0 x1 x2 x3 x4 x5 x6 x7 x8 0 (by omega) Facts₀.inb_S256x8193_S256x512_0_1
      Facts₀.inb_S8192x1024_S512x1024_0_0 Facts₀.inb_S1x8192_S1x512_0_0
  · exact true_piece x0 x1 x2 x3 x4 x5 x6 x7 x8 Facts₀.inb_S256x8193_S256x1_0_0

/-- The body's seventeen stores, read back at row `r` and column `q` of the block, are the logit of row `r` in column `q`:
    the true-class logit in column 0, the sampled logits after it. -/
theorem canon_block (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S8192x1024 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S256x8193 .f32) (harg10 : arg10.IsWhole) (x0 : Vec Ideal S256x1024 .bf16) (x1 : Vec Ideal S256x1024 .bf16) (x2 : Vec Ideal S8192x1024 .bf16) (x3 : Vec Ideal S256x1 .i32) (x4 : Vec Ideal S1x8192 .i32) (x5 : Vec Ideal S256x1 .f32) (x6 : Vec Ideal S256x1 .f32) (x7 : Vec Ideal S1x8192 .f32) (x8 : Vec Ideal S1x8192 .f32) (r : Fin 256) (q : Fin 8193) :
    View.canon (kernelRun0_A (F := Ideal) c i arg1 harg1 arg2 harg2 arg3 harg3 arg4 harg4 arg5 harg5 arg6 harg6 arg7 harg7 arg8 harg8 arg9 harg9 arg10 harg10 x0 x1 x2 x3 x4 x5 x6 x7 x8).1 (ix2 r q)
      = logitsAt (fun (r : Fin 256) (k : Fin 1024) => x0 (ix2 r k)) (fun (r : Fin 256) (k : Fin 1024) => x1 (ix2 r k)) (fun (s : Fin 8192) (k : Fin 1024) => x2 (ix2 s k)) (fun (r : Fin 256) => x3 (ix2 r 0)) (fun (s : Fin 8192) => x4 (ix2 0 s)) (fun (r : Fin 256) => x5 (ix2 r 0)) (fun (r : Fin 256) => x6 (ix2 r 0)) (fun (s : Fin 8192) => x7 (ix2 0 s)) (fun (s : Fin 8192) => x8 (ix2 0 s)) r q := by
  have h := View.canon_apply_of_pieces (G x0 x1 x2 x3 x4 x5 x6 x7 x8) _
    (pieces c i arg1 harg1 arg2 harg2 arg3 harg3 arg4 harg4 arg5 harg5 arg6 harg6 arg7 harg7 arg8 harg8 arg9 harg9 arg10 harg10 x0 x1 x2 x3 x4 x5 x6 x7 x8) (ix2 r q)
    (Cover.cover c i arg1 harg1 arg2 harg2 arg3 harg3 arg4 harg4 arg5 harg5 arg6 harg6 arg7 harg7 arg8 harg8 arg9 harg9 arg10 harg10 x0 x1 x2 x3 x4 x5 x6 x7 x8 (ix2 r q))
  exact h

end Cert.KernelIdeal.BlockValue

end
-- ==== Proof.BlockReads.lean ====
/-
  The kernel program's windows, read at an index.

  The grid is one axis of 32 points. At point `t` the row-blocked windows (the activations, the true-class weight rows,
  the targets, the true-class biases, the true-class expected counts, and the result) hold rows `256 t … 256 t + 255` of
  their arrays; the other windows (the sampled-class weight rows, ids, biases and expected counts) hold their whole
  arrays at every point. A block's coordinate in its array is always the block index times the block size plus the
  coordinate inside the block. The result's blocks are written back at every point, and every index of the result
  array lies in the block of point `row / 256`.
-/
import proofs.«118683_j73057393705216_2_alg».proof.Proof.Gen.KernelIdeal.Frame.Runs
import Idealize.ShloMosaic.Lib.ValueIdx
import Idealize.ShloMosaic.Lib.Pipeline.Value

set_option maxRecDepth 16384

noncomputable section

namespace Cert.KernelIdeal.BlockReads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

/-- Row `r` of point `t`'s block is a row of the 8192-row array. -/
theorem row_lt (t : Fin cfg0.N) (r : Fin 256) : 256 * t.val + r.val < 8192 := by
  have ht : t.val < 32 := Nat.lt_of_lt_of_eq t.isLt N_0
  have hr : r.val < 256 := r.isLt
  omega

/-! ## The input windows -/

/-- Window 0's block index at point `t` is `(t, 0)`. -/
theorem idx0 : ∀ t : Fin cfg0.N, win0_0.index t (0 : Fin 2) = t.val ∧ win0_0.index t (1 : Fin 2) = 0 :=
  (by decide +kernel : ∀ t : Fin grid0.N, _)

/-- Row `r` of window 0's block at point `t` is row `256 t + r` of its array. -/
theorem blk0_apply (m : (ℓ : Loc nD τ sig) → Buf (Elt Ideal) ℓ) (c : Dev nD) (t : Fin cfg0.N) (r : Fin 256) (k : Fin 1024) :
    (iblk (F := Ideal) m c 0 t : Vec Ideal S256x1024 .bf16) (ix2 r k) = V (F := Ideal) m c main_v30 (ix2 ⟨256 * t.val + r.val, row_lt t r⟩ k) := by
  obtain ⟨e0, e1⟩ := idx0 t
  unfold iblk
  rw [View.read_apply]
  show V (F := Ideal) m c main_v30 (((cfg0.win 0).blk t).view.emb (ix2 r k)) = _
  refine congrArg (V (F := Ideal) m c main_v30) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * k.val = k.val; omega

/-- Window 1's block index at point `t` is `(t, 0)`. -/
theorem idx1 : ∀ t : Fin cfg0.N, win0_1.index t (0 : Fin 2) = t.val ∧ win0_1.index t (1 : Fin 2) = 0 :=
  (by decide +kernel : ∀ t : Fin grid0.N, _)

/-- Row `r` of window 1's block at point `t` is row `256 t + r` of its array. -/
theorem blk1_apply (m : (ℓ : Loc nD τ sig) → Buf (Elt Ideal) ℓ) (c : Dev nD) (t : Fin cfg0.N) (r : Fin 256) (k : Fin 1024) :
    (iblk (F := Ideal) m c 1 t : Vec Ideal S256x1024 .bf16) (ix2 r k) = V (F := Ideal) m c main_v7 (ix2 ⟨256 * t.val + r.val, row_lt t r⟩ k) := by
  obtain ⟨e0, e1⟩ := idx1 t
  unfold iblk
  rw [View.read_apply]
  show V (F := Ideal) m c main_v7 (((cfg0.win 1).blk t).view.emb (ix2 r k)) = _
  refine congrArg (V (F := Ideal) m c main_v7) (funext fun a => Fin.ext ?_)
  match a with
  | ⟨0, _⟩ => show win0_1.index t (0 : Fin 2) * 256 + 1 * r.val = 256 * t.val + r.val; omega
  | ⟨1, _⟩ => show win0_1.index t (1 : Fin 2) * 1024 + 1 * k.val = k.val; omega

/-- Window 2's block index is `(0, 0)` at every point: its one block is the whole array. -/
theorem idx2 : ∀ t : Fin cfg0.N, win0_2.index t (0 : Fin 2) = 0 ∧ win0_2.index t (1 : Fin 2) = 0 :=
  (by decide +kernel : ∀ t : Fin grid0.N, _)

/-- Window 2's block is its whole array at every point. -/
theorem blk2_apply (m : (ℓ : Loc nD τ sig) → Buf (Elt Ideal) ℓ) (c : Dev nD) (t : Fin cfg0.N) (s : Fin 8192) (k : Fin 1024) :
    (iblk (F := Ideal) m c 2 t : Vec Ideal S8192x1024 .bf16) (ix2 s k) = V (F := Ideal) m c main_v22 (ix2 s k) := by
  obtain ⟨e0, e1⟩ := idx2 t
  unfold iblk
  rw [View.read_apply]
  show V (F := Ideal) m c main_v22 (((cfg0.win 2).blk t).view.emb (ix2 s k)) = _
  refine congrArg (V (F := Ideal) m c main_v22) (funext fun a => Fin.ext ?_)
  match a with
  | ⟨0, _⟩ => show win0_2.index t (0 : Fin 2) * 8192 + 1 * s.val = s.val; omega
  | ⟨1, _⟩ => show win0_2.index t (1 : Fin 2) * 1024 + 1 * k.val = k.val; omega

/-- Window 3's block index at point `t` is `(t, 0)`. -/
theorem idx3 : ∀ t : Fin cfg0.N, win0_3.index t (0 : Fin 2) = t.val ∧ win0_3.index t (1 : Fin 2) = 0 :=
  (by decide +kernel : ∀ t : Fin grid0.N, _)

/-- Row `r` of window 3's one-column block at point `t` is row `256 t + r` of its array. -/
theorem blk3_apply (m : (ℓ : Loc nD τ sig) → Buf (Elt Ideal) ℓ) (c : Dev nD) (t : Fin cfg0.N) (r : Fin 256) :
    (iblk (F := Ideal) m c 3 t : Vec Ideal S256x1 .i32) (ix2 r (0 : Fin 1)) = V (F := Ideal) m c main_v31 (ix2 ⟨256 * t.val + r.val, row_lt t r⟩ (0 : Fin 1)) := by
  obtain ⟨e0, e1⟩ := idx3 t
  unfold iblk
  rw [View.read_apply]
  show V (F := Ideal) m c main_v31 (((cfg0.win 3).blk t).view.emb (ix2 r (0 : Fin 1))) = _
  refine congrArg (V (F := Ideal) m c main_v31) (funext fun a => Fin.ext ?_)
  match a with
  | ⟨0, _⟩ => show win0_3.index t (0 : Fin 2) * 256 + 1 * r.val = 256 * t.val + r.val; omega
  | ⟨1, _⟩ => show win0_3.index t (1 : Fin 2) * 1 + 1 * 0 = 0; omega

/-- Window 4's block index is `(0, 0)` at every point: its one block is the whole array. -/
theorem idx4 : ∀ t : Fin cfg0.N, win0_4.index t (0 : Fin 2) = 0 ∧ win0_4.index t (1 : Fin 2) = 0 :=
  (by decide +kernel : ∀ t : Fin grid0.N, _)

/-- Window 4's block is its whole one-row array at every point. -/
theorem blk4_apply (m : (ℓ : Loc nD τ sig) → Buf (Elt Ideal) ℓ) (c : Dev nD) (t : Fin cfg0.N) (s : Fin 8192) :
    (iblk (F := Ideal) m c 4 t : Vec Ideal S1x8192 .i32) (ix2 (0 : Fin 1) s) = V (F := Ideal) m c main_v32 (ix2 (0 : Fin 1) s) := by
  obtain ⟨e0, e1⟩ := idx4 t
  unfold iblk
  rw [View.read_apply]
  show V (F := Ideal) m c main_v32 (((cfg0.win 4).blk t).view.emb (ix2 (0 : Fin 1) s)) = _
  refine congrArg (V (F := Ideal) m c main_v32) (funext fun a => Fin.ext ?_)
  match a with
  | ⟨0, _⟩ => show win0_4.index t (0 : Fin 2) * 1 + 1 * 0 = 0; omega
  | ⟨1, _⟩ => show win0_4.index t (1 : Fin 2) * 8192 + 1 * s.val = s.val; omega

/-- Window 5's block index at point `t` is `(t, 0)`. -/
theorem idx5 : ∀ t : Fin cfg0.N, win0_5.index t (0 : Fin 2) = t.val ∧ win0_5.index t (1 : Fin 2) = 0 :=
  (by decide +kernel : ∀ t : Fin grid0.N, _)

/-- Row `r` of window 5's one-column block at point `t` is row `256 t + r` of its array. -/
theorem blk5_apply (m : (ℓ : Loc nD τ sig) → Buf (Elt Ideal) ℓ) (c : Dev nD) (t : Fin cfg0.N) (r : Fin 256) :
    (iblk (F := Ideal) m c 5 t : Vec Ideal S256x1 .f32) (ix2 r (0 : Fin 1)) = V (F := Ideal) m c main_v33 (ix2 ⟨256 * t.val + r.val, row_lt t r⟩ (0 : Fin 1)) := by
  obtain ⟨e0, e1⟩ := idx5 t
  unfold iblk
  rw [View.read_apply]
  show V (F := Ideal) m c main_v33 (((cfg0.win 5).blk t).view.emb (ix2 r (0 : Fin 1))) = _
  refine congrArg (V (F := Ideal) m c main_v33) (funext fun a => Fin.ext ?_)
  match a with
  | ⟨0, _⟩ => show win0_5.index t (0 : Fin 2) * 256 + 1 * r.val = 256 * t.val + r.val; omega
  | ⟨1, _⟩ => show win0_5.index t (1 : Fin 2) * 1 + 1 * 0 = 0; omega

/-- Window 6's block index at point `t` is `(t, 0)`. -/
theorem idx6 : ∀ t : Fin cfg0.N, win0_6.index t (0 : Fin 2) = t.val ∧ win0_6.index t (1 : Fin 2) = 0 :=
  (by decide +kernel : ∀ t : Fin grid0.N, _)

/-- Row `r` of window 6's one-column block at point `t` is row `256 t + r` of its array. -/
theorem blk6_apply (m : (ℓ : Loc nD τ sig) → Buf (Elt Ideal) ℓ) (c : Dev nD) (t : Fin cfg0.N) (r : Fin 256) :
    (iblk (F := Ideal) m c 6 t : Vec Ideal S256x1 .f32) (ix2 r (0 : Fin 1)) = V (F := Ideal) m c main_v34 (ix2 ⟨256 * t.val + r.val, row_lt t r⟩ (0 : Fin 1)) := by
  obtain ⟨e0, e1⟩ := idx6 t
  unfold iblk
  rw [View.read_apply]
  show V (F := Ideal) m c main_v34 (((cfg0.win 6).blk t).view.emb (ix2 r (0 : Fin 1))) = _
  refine congrArg (V (F := Ideal) m c main_v34) (funext fun a => Fin.ext ?_)
  match a with
  | ⟨0, _⟩ => show win0_6.index t (0 : Fin 2) * 256 + 1 * r.val = 256 * t.val + r.val; omega
  | ⟨1, _⟩ => show win0_6.index t (1 : Fin 2) * 1 + 1 * 0 = 0; omega

/-- Window 7's block index is `(0, 0)` at every point: its one block is the whole array. -/
theorem idx7 : ∀ t : Fin cfg0.N, win0_7.index t (0 : Fin 2) = 0 ∧ win0_7.index t (1 : Fin 2) = 0 :=
  (by decide +kernel : ∀ t : Fin grid0.N, _)

/-- Window 7's block is its whole one-row array at every point. -/
theorem blk7_apply (m : (ℓ : Loc nD τ sig) → Buf (Elt Ideal) ℓ) (c : Dev nD) (t : Fin cfg0.N) (s : Fin 8192) :
    (iblk (F := Ideal) m c 7 t : Vec Ideal S1x8192 .f32) (ix2 (0 : Fin 1) s) = V (F := Ideal) m c main_v35 (ix2 (0 : Fin 1) s) := by
  obtain ⟨e0, e1⟩ := idx7 t
  unfold iblk
  rw [View.read_apply]
  show V (F := Ideal) m c main_v35 (((cfg0.win 7).blk t).view.emb (ix2 (0 : Fin 1) s)) = _
  refine congrArg (V (F := Ideal) m c main_v35) (funext fun a => Fin.ext ?_)
  match a with
  | ⟨0, _⟩ => show win0_7.index t (0 : Fin 2) * 1 + 1 * 0 = 0; omega
  | ⟨1, _⟩ => show win0_7.index t (1 : Fin 2) * 8192 + 1 * s.val = s.val; omega

/-- Window 8's block index is `(0, 0)` at every point: its one block is the whole array. -/
theorem idx8 : ∀ t : Fin cfg0.N, win0_8.index t (0 : Fin 2) = 0 ∧ win0_8.index t (1 : Fin 2) = 0 :=
  (by decide +kernel : ∀ t : Fin grid0.N, _)

/-- Window 8's block is its whole one-row array at every point. -/
theorem blk8_apply (m : (ℓ : Loc nD τ sig) → Buf (Elt Ideal) ℓ) (c : Dev nD) (t : Fin cfg0.N) (s : Fin 8192) :
    (iblk (F := Ideal) m c 8 t : Vec Ideal S1x8192 .f32) (ix2 (0 : Fin 1) s) = V (F := Ideal) m c main_v36 (ix2 (0 : Fin 1) s) := by
  obtain ⟨e0, e1⟩ := idx8 t
  unfold iblk
  rw [View.read_apply]
  show V (F := Ideal) m c main_v36 (((cfg0.win 8).blk t).view.emb (ix2 (0 : Fin 1) s)) = _
  refine congrArg (V (F := Ideal) m c main_v36) (funext fun a => Fin.ext ?_)
  match a with
  | ⟨0, _⟩ => show win0_8.index t (0 : Fin 2) * 1 + 1 * 0 = 0; omega
  | ⟨1, _⟩ => show win0_8.index t (1 : Fin 2) * 8192 + 1 * s.val = s.val; omega

/-! ## The output window -/

/-- Window 9's block index at point `t` is `(t, 0)`. -/
theorem idx9 : ∀ t : Fin cfg0.N, win0_9.index t (0 : Fin 2) = t.val ∧ win0_9.index t (1 : Fin 2) = 0 :=
  (by decide +kernel : ∀ t : Fin grid0.N, _)

/-- Where point `t`'s block of the result sits in the result array: row `r` of the block is row `256 t + r`. -/
theorem emb9 (t : Fin cfg0.N) (r : Fin 256) (q : Fin 8193) :
    ((cfg0.win 9).blk t).view.emb (ix2 r q : S256x8193.Idx) = (ix2 ⟨256 * t.val + r.val, row_lt t r⟩ q : S8192x8193.Idx) := by
  obtain ⟨e0, e1⟩ := idx9 t
  refine funext fun a => Fin.ext ?_
  match a with
  | ⟨0, _⟩ => show win0_9.index t (0 : Fin 2) * 256 + 1 * r.val = 256 * t.val + r.val; omega
  | ⟨1, _⟩ => show win0_9.index t (1 : Fin 2) * 8193 + 1 * q.val = q.val; omega

/-- An index of the result array is in point `t`'s block iff each coordinate is in the block's range on its axis. -/
theorem mem_blk9 (t : Fin cfg0.N) (i : S8192x8193.Idx) :
    i ∈ ((cfg0.win 9).blk t).view.set ↔ ∀ a : Fin 2, win0_9.index t a * S256x8193.size a ≤ (i a).val ∧ (i a).val < win0_9.index t a * S256x8193.size a + S256x8193.size a := by
  show i ∈ ((View.whole main_v37).slice (win0_9.rect t)).set ↔ _
  rw [View.set_slice_whole, Rect.mem_set_unit]
  exact Iff.rfl

/-- The result's blocks cover the result array: row `n` lies in the block of point `n / 256`, which is written back. -/
theorem cover9 (i : S8192x8193.Idx) : ∃ t : Fin cfg0.N, (cfg0.win 9).flush t = true ∧ i ∈ ((cfg0.win 9).blk t).view.set := by
  have hi0 : (i 0).val < 8192 := (i 0).isLt
  have hi1 : (i 1).val < 8193 := (i 1).isLt
  obtain ⟨t, ht⟩ : ∃ t : Fin cfg0.N, t.val = (i 0).val / 256 :=
    ⟨⟨(i 0).val / 256, Nat.lt_of_lt_of_eq (by omega : (i 0).val / 256 < 32) N_0.symm⟩, rfl⟩
  obtain ⟨e0, e1⟩ := idx9 t
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 8193 ≤ (i 1).val ∧ (i 1).val < win0_9.index t (1 : Fin 2) * 8193 + 8193; omega

end Cert.KernelIdeal.BlockReads

end
-- ==== Proof.HostSides.lean ====
import proofs.«118683_j73057393705216_2_alg».proof.Proof.Gen.KernelIdeal.Frame.Runs
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

/-! # The host sides of the kernel program

What the program's entry function does around its one region.  BEFORE the region: the start indices of its gathers (a
negative index wraps once around the vocabulary of 50257 rows), the gathered weight rows and biases, three changes of
float format (each the identity on the extended reals), and six changes of layout of a vector of 8192 entries into a
column `[8192, 1]` or a row `[1, 8192]`.  The nine arrays the region stages are stated here whole and at an index, in
terms of the arguments as launched.  AFTER the region: one array, the constant zero. -/

namespace Cert.KernelIdeal.HostSides

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Cert.KernelIdeal Cert.KernelIdeal.Gen

section Staged

variable (m : (ℓ : Loc nD τ sig) → Buf (Elt Ideal) ℓ) (c : Dev nD)

/-! ## The start indices of the two gathers, and the gathered rows and biases -/

/-- The column of start indices a gather of this program reads: a negative index wraps once around the vocabulary
    (`x < 0 ↦ x + 50257`), laid out as an `[8192, 1]` column. -/
def startCol (x : (⟨S8192, .i32⟩ : BufTy).Contents (Elt Ideal)) : (⟨S8192x1, .i32⟩ : BufTy).Contents (Elt Ideal) :=
  broadcastInDim S8192x1 ![0] bcast_S8192_S8192x1_0
    (select (cmpi .slt x (broadcastInDim S8192 ![] bcast_S_S8192 (constantI S_ 32 0#32)))
      (addi x (broadcastInDim S8192 ![] bcast_S_S8192 (constantI S_ 32 50257#32))) x)

/-- The weight rows at the indices `x`: row `n` of the result is the table's row at `x n` (wrapped). -/
def rowsOf (w : (⟨S50257x1024, .f32⟩ : BufTy).Contents (Elt Ideal)) (x : (⟨S8192, .i32⟩ : BufTy).Contents (Elt Ideal)) :
    (⟨S8192x1024, .f32⟩ : BufTy).Contents (Elt Ideal) :=
  Host.gather gather_S50257x1024_S8192x1_S8192x1024_1_0_n_n_0_1_11024 w (startCol x)

/-- The biases at the indices `x`. -/
def biasOf (b : (⟨S50257, .f32⟩ : BufTy).Contents (Elt Ideal)) (x : (⟨S8192, .i32⟩ : BufTy).Contents (Elt Ideal)) :
    (⟨S8192, .f32⟩ : BufTy).Contents (Elt Ideal) :=
  Host.gather gather_S50257_S8192x1_S8192_n_0_n_n_0_1_1 b (startCol x)

/-! ## The nine staged arrays as the region finds them, whole

Each is the value of the straight line of host operations before the region, read at that array: a change of float
format of an argument or of gathered rows, or an argument (or the gathered biases) laid out as a column `[8192, 1]` or
as a row `[1, 8192]`. -/

theorem V_v30_eq : V (F := Ideal) m c main_v30
    = truncf (F := Ideal) (s := S8192x1024) (φ := .f32) .bf16 (m ((c.tc : Thread nD τ).loc main_arg0)) bitsLt_bf16_f32 := by
  show StableHlo.after hostOps0 (fun b => m (c, b)) (Proc.devRef .tc main_v30) = _
  after_results_simp
  first | done | rfl

theorem V_v7_eq : V (F := Ideal) m c main_v7
    = truncf (F := Ideal) (s := S8192x1024) (φ := .f32) .bf16
        (rowsOf (m ((c.tc : Thread nD τ).loc main_arg5)) (m ((c.tc : Thread nD τ).loc main_arg1))) bitsLt_bf16_f32 := by
  show StableHlo.after hostOps0 (fun b => m (c, b)) (Proc.devRef .tc main_v7) = _
  after_results_simp
  first | done | rfl

theorem V_v22_eq : V (F := Ideal) m c main_v22
    = truncf (F := Ideal) (s := S8192x1024) (φ := .f32) .bf16
        (rowsOf (m ((c.tc : Thread nD τ).loc main_arg5)) (m ((c.tc : Thread nD τ).loc main_arg2))) bitsLt_bf16_f32 := by
  show StableHlo.after hostOps0 (fun b => m (c, b)) (Proc.devRef .tc main_v22) = _
  after_results_simp
  first | done | rfl

theorem V_v31_eq : V (F := Ideal) m c main_v31
    = fun i => shapeCast S8192x1 (m ((c.tc : Thread nD τ).loc main_arg1)) shapeCasts_S8192_S8192x1 i := by
  show StableHlo.after hostOps0 (fun b => m (c, b)) (Proc.devRef .tc main_v31) = _
  after_results_simp
  first | done | rfl

theorem V_v32_eq : V (F := Ideal) m c main_v32
    = fun i => shapeCast S1x8192 (m ((c.tc : Thread nD τ).loc main_arg2)) shapeCasts_S8192_S1x8192 i := by
  show StableHlo.after hostOps0 (fun b => m (c, b)) (Proc.devRef .tc main_v32) = _
  after_results_simp
  first | done | rfl

theorem V_v33_eq : V (F := Ideal) m c main_v33
    = fun i => shapeCast S8192x1 (biasOf (m ((c.tc : Thread nD τ).loc main_arg6)) (m ((c.tc : Thread nD τ).loc main_arg1)))
        shapeCasts_S8192_S8192x1 i := by
  show StableHlo.after hostOps0 (fun b => m (c, b)) (Proc.devRef .tc main_v33) = _
  after_results_simp
  first | done | rfl

theorem V_v34_eq : V (F := Ideal) m c main_v34
    = fun i => shapeCast S8192x1 (m ((c.tc : Thread nD τ).loc main_arg3)) shapeCasts_S8192_S8192x1 i := by
  show StableHlo.after hostOps0 (fun b => m (c, b)) (Proc.devRef .tc main_v34) = _
  after_results_simp
  first | done | rfl

theorem V_v35_eq : V (F := Ideal) m c main_v35
    = fun i => shapeCast S1x8192 (biasOf (m ((c.tc : Thread nD τ).loc main_arg6)) (m ((c.tc : Thread nD τ).loc main_arg2)))
        shapeCasts_S8192_S1x8192 i := by
  show StableHlo.after hostOps0 (fun b => m (c, b)) (Proc.devRef .tc main_v35) = _
  after_results_simp
  first | done | rfl

theorem V_v36_eq : V (F := Ideal) m c main_v36
    = fun i => shapeCast S1x8192 (m ((c.tc : Thread nD τ).loc main_arg4)) shapeCasts_S8192_S1x8192 i := by
  show StableHlo.after hostOps0 (fun b => m (c, b)) (Proc.devRef .tc main_v36) = _
  after_results_simp
  first | done | rfl

/-! ## The same, read at an index -/

/-- An `[8192]` array laid out as a column reads, at `(n, 0)`, the array at `n`. -/
theorem col_apply {α : Type} (x : S8192.Idx → α) (n : Fin 8192) :
    shapeCast S8192x1 x shapeCasts_S8192_S8192x1 (ix2 n (0 : Fin 1)) = x (ix1 n) :=
  shapeCast_apply x shapeCasts_S8192_S8192x1 (ix2 n (0 : Fin 1)) (ix1 n) (by
    rw [Shape.rowMajor_val_two, Shape.rowMajor_val_one]
    show n.val = n.val * 1 + 0
    omega)

/-- An `[8192]` array laid out as a row reads, at `(0, s)`, the array at `s`. -/
theorem row_apply {α : Type} (x : S8192.Idx → α) (s : Fin 8192) :
    shapeCast S1x8192 x shapeCasts_S8192_S1x8192 (ix2 (0 : Fin 1) s) = x (ix1 s) :=
  shapeCast_a_1a_apply x shapeCasts_S8192_S1x8192 (0 : Fin 1) s

theorem V_v30_apply (n : Fin 8192) (k : Fin 1024) :
    V (F := Ideal) m c main_v30 (ix2 n k) = m ((c.tc : Thread nD τ).loc main_arg0) (ix2 n k) := by
  rw [V_v30_eq m c]; rfl

theorem V_v7_apply (n : Fin 8192) (k : Fin 1024) :
    V (F := Ideal) m c main_v7 (ix2 n k)
      = rowsOf (m ((c.tc : Thread nD τ).loc main_arg5)) (m ((c.tc : Thread nD τ).loc main_arg1)) (ix2 n k) := by
  rw [V_v7_eq m c]; rfl

theorem V_v22_apply (s : Fin 8192) (k : Fin 1024) :
    V (F := Ideal) m c main_v22 (ix2 s k)
      = rowsOf (m ((c.tc : Thread nD τ).loc main_arg5)) (m ((c.tc : Thread nD τ).loc main_arg2)) (ix2 s k) := by
  rw [V_v22_eq m c]; rfl

theorem V_v31_apply (n : Fin 8192) :
    V (F := Ideal) m c main_v31 (ix2 n (0 : Fin 1)) = m ((c.tc : Thread nD τ).loc main_arg1) (ix1 n) := by
  rw [V_v31_eq m c]; exact col_apply _ n

theorem V_v32_apply (s : Fin 8192) :
    V (F := Ideal) m c main_v32 (ix2 (0 : Fin 1) s) = m ((c.tc : Thread nD τ).loc main_arg2) (ix1 s) := by
  rw [V_v32_eq m c]; exact row_apply _ s

theorem V_v33_apply (n : Fin 8192) :
    V (F := Ideal) m c main_v33 (ix2 n (0 : Fin 1))
      = biasOf (m ((c.tc : Thread nD τ).loc main_arg6)) (m ((c.tc : Thread nD τ).loc main_arg1)) (ix1 n) := by
  rw [V_v33_eq m c]; exact col_apply _ n

theorem V_v34_apply (n : Fin 8192) :
    V (F := Ideal) m c main_v34 (ix2 n (0 : Fin 1)) = m ((c.tc : Thread nD τ).loc main_arg3) (ix1 n) := by
  rw [V_v34_eq m c]; exact col_apply _ n

theorem V_v35_apply (s : Fin 8192) :
    V (F := Ideal) m c main_v35 (ix2 (0 : Fin 1) s)
      = biasOf (m ((c.tc : Thread nD τ).loc main_arg6)) (m ((c.tc : Thread nD τ).loc main_arg2)) (ix1 s) := by
  rw [V_v35_eq m c]; exact row_apply _ s

theorem V_v36_apply (s : Fin 8192) :
    V (F := Ideal) m c main_v36 (ix2 (0 : Fin 1) s) = m ((c.tc : Thread nD τ).loc main_arg4) (ix1 s) := by
  rw [V_v36_eq m c]; exact row_apply _ s

end Staged

/-! ## After the region -/

/-- The one array the host lines after the region write: the constant zero, at every index. -/
theorem tail_v38 (m : (ℓ : Loc nD τ sig) → Buf (Elt Ideal) ℓ)
    (dats : (p : Fin 1) → (c : Dev nD) → Idealize.ShloMosaic.Pipeline.Dat τ (Elt Ideal) Unit ℕ (UR sig nD τ) ℕ (cfgs p) c)
    (c : Dev nD) :
    Pipeline.afterTail₀ cfgs dats 0 (V0 (F := Ideal) m) [hostOps1] c main_v38
      = broadcastInDim S8192 ![] bcast_S_S8192 (constantI S_ 32 0#32) := by
  unfold Pipeline.afterTail₀
  show StableHlo.after hostOps1 _ (Proc.devRef .tc main_v38) = _
  after_results
  first | done | rfl

/-- That array is none of the region's windows' arrays (and is unscoped): the region leaves it alone. -/
theorem v38_rest : main_v38 ∈ Pipeline.restRefs sig (cfgs 0).spec :=
  Pipeline.mem_restRefs_of main_v38 (by decide) (by decide)

/-- The region's output window (window 9) is over the array `main_v37`. -/
theorem v37_is_window9 : Pipeline.arrRef spec0 9 = main_v37 := rfl

/-- … so core `c`'s location of window 9's array is its location of `main_v37`. -/
theorem v37_loc (c : Dev nD) :
    ((cfgs 0).spec 9).arr.view.loc (c.tc : Thread nD τ) = (c.tc : Thread nD τ).loc main_v37 := rfl

end Cert.KernelIdeal.HostSides
end
-- ==== Proof.ArrayValue.lean ====
/-
  The idealized kernel's result arrays, as functions of its argument arrays.

  At grid point `t` the body sees rows 256·t … 256·t + 255 of the per-row arrays (the activations, the true-class
  weight rows, targets, biases and expected counts) and the whole of the per-sample arrays, and leaves in the output
  block the logits of those rows (the seventeen stores read back as one function). A row of the block is row
  256·t + r of the arrays, so what point `t` writes back is block `t` of ONE whole-array function, `result`: the
  logits of all 8192 rows. The thirty-two blocks cover the [8192, 8193] array, so it ends holding `result`. The arrays
  the region stages are the host's gathers, format changes and reshapes of the arguments, which at the ideal instance
  read, index by index, as the gathered rows and biases and the arguments themselves. The second result is written by
  the two host lines after the region: a broadcast of the integer zero.
-/
import proofs.«118683_j73057393705216_2_alg».proof.Proof.FrameIdealP
import proofs.«118683_j73057393705216_2_alg».proof.Proof.Logits
import proofs.«118683_j73057393705216_2_alg».proof.Proof.BlockValue
import proofs.«118683_j73057393705216_2_alg».proof.Proof.BlockReads
import proofs.«118683_j73057393705216_2_alg».proof.Proof.HostSides
import Idealize.ShloMosaic.Lib.Pipeline.Value
import Idealize.ShloMosaic.Lib.ValueIdx

set_option maxRecDepth 16384

noncomputable section

open scoped BigOperators

open Idealize.ShloMosaic Idealize.ShloMosaic.TcCoe Idealize.SL.Sem Idealize.ShloMosaic.StableHlo
open Idealize.ShloMosaic.Pipeline (Dat)
open Idealize.ShloMosaic.ValueIdx Cert.SampledLogits

namespace Cert.KernelIdeal.ArrayValue

open Cert.KernelIdeal Cert.KernelIdeal.Gen Cert.KernelIdeal.GenP
open Cert.KernelIdeal.HostSides Cert.KernelIdeal.BlockReads Cert.KernelIdeal.BlockValue

variable (m : (ℓ : Loc nD τ sig) → Buf (Elt Ideal) ℓ) (ρ : Dev nD → PrngReg)

/-- The logits of a re-indexed family of rows are the logits of the rows they name: every per-row array enters
    `logitsAt` only through the row. -/
theorem logitsAt_rows {R R' : Type} (f : R' → R)
    {a tw : R → Fin 1024 → EReal} {a' tw' : R' → Fin 1024 → EReal} {sw sw' : Fin 8192 → Fin 1024 → EReal}
    {tgt : R → BitVec 32} {tgt' : R' → BitVec 32} {sid sid' : Fin 8192 → BitVec 32}
    {tb tf : R → EReal} {tb' tf' : R' → EReal} {sb sf sb' sf' : Fin 8192 → EReal}
    (ha : ∀ n k, a' n k = a (f n) k) (htw : ∀ n k, tw' n k = tw (f n) k) (hsw : ∀ s k, sw' s k = sw s k)
    (htgt : ∀ n, tgt' n = tgt (f n)) (hsid : ∀ s, sid' s = sid s) (htb : ∀ n, tb' n = tb (f n))
    (htf : ∀ n, tf' n = tf (f n)) (hsb : ∀ s, sb' s = sb s) (hsf : ∀ s, sf' s = sf s) (n : R') (c : Fin 8193) :
    logitsAt a' tw' sw' tgt' sid' tb' tf' sb' sf' n c = logitsAt a tw sw tgt sid tb tf sb sf (f n) c := by
  obtain rfl : a' = fun n k => a (f n) k := funext fun n => funext fun k => ha n k
  obtain rfl : tw' = fun n k => tw (f n) k := funext fun n => funext fun k => htw n k
  obtain rfl : sw' = sw := funext fun s => funext fun k => hsw s k
  obtain rfl : tgt' = fun n => tgt (f n) := funext htgt
  obtain rfl : sid' = sid := funext hsid
  obtain rfl : tb' = fun n => tb (f n) := funext htb
  obtain rfl : tf' = fun n => tf (f n) := funext htf
  obtain rfl : sb' = sb := funext hsb
  obtain rfl : sf' = sf := funext hsf
  rfl

/-- The first result as one function of the argument arrays: the logits of all 8192 rows against the gathered true-class
    and sampled rows and biases. -/
def result (c : Dev nD) : S8192x8193.Idx → EReal := fun y =>
  logitsAt (fun (n : Fin 8192) (k : Fin 1024) => m ((c.tc : Thread nD τ).loc main_arg0) (ix2 n k))
    (fun (n : Fin 8192) (k : Fin 1024) => rowsOf (m ((c.tc : Thread nD τ).loc main_arg5)) (m ((c.tc : Thread nD τ).loc main_arg1)) (ix2 n k))
    (fun (s : Fin 8192) (k : Fin 1024) => rowsOf (m ((c.tc : Thread nD τ).loc main_arg5)) (m ((c.tc : Thread nD τ).loc main_arg2)) (ix2 s k))
    (fun (n : Fin 8192) => m ((c.tc : Thread nD τ).loc main_arg1) (ix1 n))
    (fun (s : Fin 8192) => m ((c.tc : Thread nD τ).loc main_arg2) (ix1 s))
    (fun (n : Fin 8192) => biasOf (m ((c.tc : Thread nD τ).loc main_arg6)) (m ((c.tc : Thread nD τ).loc main_arg1)) (ix1 n))
    (fun (n : Fin 8192) => m ((c.tc : Thread nD τ).loc main_arg3) (ix1 n))
    (fun (s : Fin 8192) => biasOf (m ((c.tc : Thread nD τ).loc main_arg6)) (m ((c.tc : Thread nD τ).loc main_arg2)) (ix1 s))
    (fun (s : Fin 8192) => m ((c.tc : Thread nD τ).loc main_arg4) (ix1 s)) (y 0) (y 1)

/-- What point `t` writes back is block `t` of `result`. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after0_9]
  funext j
  obtain ⟨r, q, rfl⟩ : ∃ (r : Fin 256) (q : Fin 8193), j = ix2 r q := ⟨j 0, j 1, eq_ix2 j⟩
  rw [View.read_apply]
  show outsAt0 m c t (ix2 r q) = result m c (((cfg0.win 9).blk t).view.emb (ix2 r q))
  rw [emb9 t r q]
  unfold outsAt0 out0_A_9
  rw [View.read_writes_eq_canon _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t))]
  refine (canon_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t) r q).trans ?_
  show _ = logitsAt _ _ _ _ _ _ _ _ _ (⟨256 * t.val + r.val, row_lt t r⟩ : Fin 8192) q
  exact logitsAt_rows (fun (r : Fin 256) => (⟨256 * t.val + r.val, row_lt t r⟩ : Fin 8192))
    (fun r k => (blk0_apply m c t r k).trans (V_v30_apply m c _ k))
    (fun r k => (blk1_apply m c t r k).trans (V_v7_apply m c _ k))
    (fun s k => (blk2_apply m c t s k).trans (V_v22_apply m c s k))
    (fun r => (blk3_apply m c t r).trans (V_v31_apply m c _))
    (fun s => (blk4_apply m c t s).trans (V_v32_apply m c s))
    (fun r => (blk5_apply m c t r).trans (V_v33_apply m c _))
    (fun r => (blk6_apply m c t r).trans (V_v34_apply m c _))
    (fun s => (blk7_apply m c t s).trans (V_v35_apply m c s))
    (fun s => (blk8_apply m c t s).trans (V_v36_apply m c s)) r q

/-- The result array after the run: the thirty-two blocks cover it, so it holds `result`. -/
theorem final (c : Dev nD) : (dats m 0 c).arrAt 9 cfg0.N = result m c :=
  (dats m 0 c).arrAt_eq_of_cover 9 (result m c) (fun t _ => flushed_eq m c t) cover9

/-- The run, read: the first result at `result`, the second at the broadcast zero the host writes after the region,
    the arguments unchanged. -/
theorem run : θ_run defs (onTc (τ := τ) (main (F := Ideal))) ⟨m, fun _ => 0, ρ⟩ fun r => ∀ c : Dev nD,
      r.2.mem ((c.tc : Thread nD τ).loc main_v37) = result m c
      ∧ r.2.mem ((c.tc : Thread nD τ).loc main_v38) = broadcastInDim S8192 ![] bcast_S_S8192 (constantI S_ 32 0#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 9).trans (final m c),
      ((h c).2 main_v38 v38_rest).trans (tail_v38 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.ArrayValue

end
-- ==== Proof.RefLogits.lean ====
/-
  The reference program's result, read at an index, is the sampled-softmax logits of the specification.

  The reference gathers, for each row's true class and for each sampled class, a weight row and a bias (the gathers are
  kept as opaque terms: which element they read depends on the class ids), forms the true-class column as a sum of
  products over the hidden axis plus the bias minus the log of the expected count, forms the sampled columns as a
  contraction over the hidden axis plus the bias, replaced by a constant where the sampled class is the row's true
  class, minus the log of the expected count, and joins the true column before the sampled columns.
-/
import proofs.«118683_j73057393705216_2_alg».proof.Proof.Gen.ReferenceIdeal.Read
import proofs.«118683_j73057393705216_2_alg».proof.Proof.Logits
import Idealize.ShloMosaic.Lib.ValueIdx
import Idealize.ShloMosaic.Lib.Pipeline.Value
import Idealize.ShloMosaic.PureOps.Ideal.Laws

noncomputable section

open scoped BigOperators

open Idealize.ShloMosaic Idealize.ShloMosaic.ValueIdx Cert.SampledLogits

namespace Cert.ReferenceIdeal.RefLogits

open Cert.ReferenceIdeal Cert.ReferenceIdeal.Gen Cert.ReferenceIdeal.Read
open Idealize.ShloMosaic.TcCoe Idealize.SL.Sem Idealize.ShloMosaic.StableHlo

/-- The start indices of a gather: a class id, wrapped into range when negative, as a one-column array. -/
def startCol (x : (⟨S8192, .i32⟩ : BufTy).Contents (Elt Ideal)) : (⟨S8192x1, .i32⟩ : BufTy).Contents (Elt Ideal) :=
  broadcastInDim S8192x1 ![0] bcast_S8192_S8192x1_0 (select (cmpi .slt x (broadcastInDim S8192 ![] bcast_S_S8192 (constantI S_ 32 0#32))) (addi x (broadcastInDim S8192 ![] bcast_S_S8192 (constantI S_ 32 50257#32))) x)

/-- The weight rows of the classes `x`. -/
def rowsOf (w : (⟨S50257x1024, .f32⟩ : BufTy).Contents (Elt Ideal)) (x : (⟨S8192, .i32⟩ : BufTy).Contents (Elt Ideal)) : (⟨S8192x1024, .f32⟩ : BufTy).Contents (Elt Ideal) :=
  Host.gather gather_S50257x1024_S8192x1_S8192x1024_1_0_n_n_0_1_11024 w (startCol x)

/-- The biases of the classes `x`. -/
def biasOf (b : (⟨S50257, .f32⟩ : BufTy).Contents (Elt Ideal)) (x : (⟨S8192, .i32⟩ : BufTy).Contents (Elt Ideal)) : (⟨S8192, .f32⟩ : BufTy).Contents (Elt Ideal) :=
  Host.gather gather_S50257_S8192x1_S8192_n_0_n_n_0_1_1 b (startCol x)

/-! ## The gathered rows and biases of the run are `rowsOf` / `biasOf` -/

theorem v5_eq (x : (⟨S8192, .i32⟩ : BufTy).Contents (Elt Ideal)) : val_main_v5 (F := Ideal) x = startCol x := rfl
theorem v12_eq (x : (⟨S8192, .i32⟩ : BufTy).Contents (Elt Ideal)) : val_main_v12 (F := Ideal) x = startCol x := rfl
theorem v19_eq (x : (⟨S8192, .i32⟩ : BufTy).Contents (Elt Ideal)) : val_main_v19 (F := Ideal) x = startCol x := rfl
theorem v26_eq (x : (⟨S8192, .i32⟩ : BufTy).Contents (Elt Ideal)) : val_main_v26 (F := Ideal) x = startCol x := rfl

theorem v6_eq (x1 : (⟨S8192, .i32⟩ : BufTy).Contents (Elt Ideal)) (x5 : (⟨S50257x1024, .f32⟩ : BufTy).Contents (Elt Ideal)) :
    val_main_v6 (F := Ideal) x1 x5 = rowsOf x5 x1 :=
  congrArg (Host.gather gather_S50257x1024_S8192x1_S8192x1024_1_0_n_n_0_1_11024 x5) (v5_eq x1)
theorem v20_eq (x2 : (⟨S8192, .i32⟩ : BufTy).Contents (Elt Ideal)) (x5 : (⟨S50257x1024, .f32⟩ : BufTy).Contents (Elt Ideal)) :
    val_main_v20 (F := Ideal) x2 x5 = rowsOf x5 x2 :=
  congrArg (Host.gather gather_S50257x1024_S8192x1_S8192x1024_1_0_n_n_0_1_11024 x5) (v19_eq x2)
theorem v13_eq (x1 : (⟨S8192, .i32⟩ : BufTy).Contents (Elt Ideal)) (x6 : (⟨S50257, .f32⟩ : BufTy).Contents (Elt Ideal)) :
    val_main_v13 (F := Ideal) x1 x6 = biasOf x6 x1 :=
  congrArg (Host.gather gather_S50257_S8192x1_S8192_n_0_n_n_0_1_1 x6) (v12_eq x1)
theorem v27_eq (x2 : (⟨S8192, .i32⟩ : BufTy).Contents (Elt Ideal)) (x6 : (⟨S50257, .f32⟩ : BufTy).Contents (Elt Ideal)) :
    val_main_v27 (F := Ideal) x2 x6 = biasOf x6 x2 :=
  congrArg (Host.gather gather_S50257_S8192x1_S8192_n_0_n_n_0_1_1 x6) (v26_eq x2)

/-! ## The true-class column -/

theorem true_col (x0 : (⟨S8192x1024, .f32⟩ : BufTy).Contents (Elt Ideal)) (x1 : (⟨S8192, .i32⟩ : BufTy).Contents (Elt Ideal))
    (x3 : (⟨S8192, .f32⟩ : BufTy).Contents (Elt Ideal)) (x5 : (⟨S50257x1024, .f32⟩ : BufTy).Contents (Elt Ideal))
    (x6 : (⟨S50257, .f32⟩ : BufTy).Contents (Elt Ideal)) (n : Fin 8192) :
    val_main_v42 (F := Ideal) x0 x1 x3 x5 x6 (ix1 n)
      = trueLogit (fun (n : Fin 8192) (k : Fin 1024) => x0 (ix2 n k)) (fun (n : Fin 8192) (k : Fin 1024) => rowsOf x5 x1 (ix2 n k))
          (fun (n : Fin 8192) => biasOf x6 x1 (ix1 n)) (fun (n : Fin 8192) => x3 (ix1 n)) n := by
  have e : ∀ k : Fin 1024, idx_main_v29 (ix1 n) k = ix2 n k := fun k =>
    funext fun a => Fin.ext (by match a with | ⟨0, _⟩ => rfl | ⟨1, _⟩ => rfl)
  rw [val_main_v42_apply, val_main_v30_apply, val_main_v29_apply, val_main_v41_apply, v13_eq]
  simp only [val_main_v28_apply, val_main_cst_apply, v6_eq, e]
  rfl

/-! ## The sampled columns -/

/-- A select on an equality test of two words is the `if` on their equality. -/
theorem select_cmpi_eq {α : Type} (u v : BitVec 32) (a b : α) :
    Scalar.select (IntOp.cmpi .eq u v) a b = if u = v then a else b := by
  unfold Scalar.select IntOp.cmpi
  by_cases h : u = v
  · simp [h]
  · have hb : (u == v) = false := beq_eq_false_iff_ne.mpr h
    simp [h, hb]

theorem sample_col (x0 : (⟨S8192x1024, .f32⟩ : BufTy).Contents (Elt Ideal)) (x1 x2 : (⟨S8192, .i32⟩ : BufTy).Contents (Elt Ideal))
    (x4 : (⟨S8192, .f32⟩ : BufTy).Contents (Elt Ideal)) (x5 : (⟨S50257x1024, .f32⟩ : BufTy).Contents (Elt Ideal))
    (x6 : (⟨S50257, .f32⟩ : BufTy).Contents (Elt Ideal)) (n s : Fin 8192) :
    val_main_v46 (F := Ideal) x0 x1 x2 x4 x5 x6 (ix2 n s)
      = sampleLogit (fun (n : Fin 8192) (k : Fin 1024) => x0 (ix2 n k)) (fun (s : Fin 8192) (k : Fin 1024) => rowsOf x5 x2 (ix2 s k))
          (fun (n : Fin 8192) => x1 (ix1 n)) (fun (s : Fin 8192) => x2 (ix1 s)) (fun (s : Fin 8192) => biasOf x6 x2 (ix1 s))
          (fun (s : Fin 8192) => x4 (ix1 s)) n s := by
  have el : ∀ k : Fin 1024, lidx_main_v31 (ix2 n s) k = ix2 n k := fun k =>
    funext fun a => Fin.ext (by match a with | ⟨0, _⟩ => rfl | ⟨1, _⟩ => rfl)
  have er : ∀ k : Fin 1024, ridx_main_v31 (ix2 n s) k = ix2 s k := fun k =>
    funext fun a => Fin.ext (by match a with | ⟨0, _⟩ => rfl | ⟨1, _⟩ => rfl)
  have e33 : idx_main_v32 (idx_main_v33 (ix2 n s)) = ix1 s :=
    funext fun a => Fin.ext (by match a with | ⟨0, _⟩ => rfl)
  have e37 : idx_main_v35 (idx_main_v37 (ix2 n s)) = ix1 n :=
    funext fun a => Fin.ext (by match a with | ⟨0, _⟩ => rfl)
  have e38 : idx_main_v36 (idx_main_v38 (ix2 n s)) = ix1 s :=
    funext fun a => Fin.ext (by match a with | ⟨0, _⟩ => rfl)
  have e45 : idx_main_v44 (idx_main_v45 (ix2 n s)) = ix1 s :=
    funext fun a => Fin.ext (by match a with | ⟨0, _⟩ => rfl)
  rw [val_main_v46_apply, val_main_v40_apply, val_main_v39_apply, val_main_v37_apply, val_main_v35_apply,
    val_main_v38_apply, val_main_v36_apply, val_main_call0_v1_apply, val_main_call0_v0_apply, val_main_cst_7_apply,
    val_main_v34_apply, val_main_v31_apply, val_main_v33_apply, val_main_v32_apply, val_main_v45_apply,
    val_main_v44_apply, val_main_v43_apply, v20_eq, v27_eq, e33, e37, e38, e45, select_cmpi_eq]
  simp only [el, er]
  rfl

/-! ## The result: the true column, then the sampled columns -/

theorem val_eq (x0 : (⟨S8192x1024, .f32⟩ : BufTy).Contents (Elt Ideal)) (x1 x2 : (⟨S8192, .i32⟩ : BufTy).Contents (Elt Ideal)) (x3 x4 : (⟨S8192, .f32⟩ : BufTy).Contents (Elt Ideal)) (x5 : (⟨S50257x1024, .f32⟩ : BufTy).Contents (Elt Ideal)) (x6 : (⟨S50257, .f32⟩ : BufTy).Contents (Elt Ideal)) (y : S8192x8193.Idx) :
    val_main_v48 (F := Ideal) x0 x1 x2 x3 x4 x5 x6 y
      = logitsAt (fun (n : Fin 8192) (k : Fin 1024) => x0 (ix2 n k)) (fun (n : Fin 8192) (k : Fin 1024) => rowsOf x5 x1 (ix2 n k)) (fun (s : Fin 8192) (k : Fin 1024) => rowsOf x5 x2 (ix2 s k)) (fun (n : Fin 8192) => x1 (ix1 n)) (fun (s : Fin 8192) => x2 (ix1 s)) (fun (n : Fin 8192) => biasOf x6 x1 (ix1 n)) (fun (n : Fin 8192) => x3 (ix1 n)) (fun (s : Fin 8192) => biasOf x6 x2 (ix1 s)) (fun (s : Fin 8192) => x4 (ix1 s)) (y 0) (y 1) := by
  obtain ⟨n, c, rfl⟩ : ∃ (n : Fin 8192) (c : Fin 8193), y = ix2 n c := ⟨y 0, y 1, eq_ix2 y⟩
  show val_main_v48 (F := Ideal) x0 x1 x2 x3 x4 x5 x6 (ix2 n c) = logitsAt _ _ _ _ _ _ _ _ _ n c
  by_cases h : c.val = 0
  · -- column 0 is the true-class column
    rw [logitsAt_zero _ _ _ _ _ _ _ _ _ n c h, ← true_col]
    unfold val_main_v48
    refine (concatenate_pair_apply_left (s₁ := S8192x1) (s₂ := S8192x8192) _ _ _ _ (ix2 n c) rfl (ix2 n (0 : Fin 1)) ?_).trans ?_
    · intro b
      match b with
      | ⟨0, _⟩ => rfl
      | ⟨1, _⟩ => exact h.symm
    · rw [val_main_v47_apply]
      exact congrArg _ (funext fun a => Fin.ext (by match a with | ⟨0, _⟩ => rfl))
  · -- column s + 1 is the s-th sampled column
    have hs : c.val - 1 < 8192 := by have := c.isLt; omega
    rw [logitsAt_succ _ _ _ _ _ _ _ _ _ n c ⟨c.val - 1, hs⟩ (by show c.val = c.val - 1 + 1; omega), ← sample_col]
    unfold val_main_v48
    refine concatenate_pair_apply_right (s₁ := S8192x1) (s₂ := S8192x8192) _ _ _ _ (ix2 n c) rfl rfl (ix2 n (⟨c.val - 1, hs⟩ : Fin 8192)) ?_ ?_
    · intro b hb
      match b, hb with
      | ⟨0, _⟩, _ => rfl
      | ⟨1, _⟩, hb => exact absurd rfl hb
    · show c.val - 1 + 1 = c.val
      omega

theorem val_zero : val_main_v49 (F := Ideal) = broadcastInDim S8192 ![] bcast_S_S8192 (constantI S_ 32 0#32) := rfl

end Cert.ReferenceIdeal.RefLogits

end
-- ==== Proof.lean ====
/-
  A sampled-softmax forward pass: a Pallas kernel against its jnp reference, equal at the ideal instance.

  Both programs compute, for each of 8192 rows n and 8193 columns, the logits
    column 0      (Σ_k out[n,k] · W[tgt n, k] + b[tgt n]) − log tf[n]
    column s + 1  (if tgt n = sid s then FILL else Σ_k out[n,k] · W[sid s, k] + b[sid s]) − log sf[s]
  (FILL the f32 pattern of −1e37 in both sources), and a second result that is all zeros. The reference does it with
  whole-array host operations: two gathers of weight rows and two of biases, a product and a row sum, one contraction
  of the activations against the sampled rows, a select on the equality of the class ids, two logs, and a
  concatenation of the true column before the sampled ones. The kernel gathers the same rows and biases on the host
  (the same gather of the same start indices), changes float formats (the identity at the ideal instance), and in one
  pallas region of 32 grid points writes each [256, 8193] output block by seventeen stores: the true column by a lane
  sum of products, and sixteen [256, 512] tiles each by one matrix product of the block's activations with 512 sampled
  rows, the same select and the same log. Over the extended reals a lane sum, a host row sum, a matrix product into a
  zero accumulator and a host contraction are all the plain finite sum over the hidden axis, so the two sides are the
  same function of the arguments index by index, in whatever order or tiling the sums are taken; no finiteness of the
  inputs is used, and the precondition is never opened.

  The pieces: `Logits` states the function; `RefLogits` reads the reference's result at an index as that function;
  `TileValue` reads the kernel body's two payload shapes at an index; `BlockValue` reads the body's seventeen stores
  back as the function of the block's rows; `BlockReads` and `HostSides` say what each staged block and each staged
  array is in terms of the arguments; `ArrayValue` concludes that the kernel's result array is the function of the
  arguments, and re-posts the kernel's run with both results named. The three frames are the programs' runs with the
  results dropped; the idealization rewrote nothing, so `preserves` is `True`.
-/
import proofs.«118683_j73057393705216_2_alg».proof.Defs
import proofs.«118683_j73057393705216_2_alg».proof.Proof.Gen.Kernel
import proofs.«118683_j73057393705216_2_alg».proof.Proof.Gen.KernelIdeal
import proofs.«118683_j73057393705216_2_alg».proof.Proof.Gen.ReferenceIdeal
import proofs.«118683_j73057393705216_2_alg».proof.Proof.Gen.Pre_finite_inputs
import proofs.«118683_j73057393705216_2_alg».proof.Proof.Gen.ReferenceIdeal.Run
import proofs.«118683_j73057393705216_2_alg».proof.Proof.Gen.ReferenceIdeal.Read
import proofs.«118683_j73057393705216_2_alg».proof.Proof.FrameBitsP
import proofs.«118683_j73057393705216_2_alg».proof.Proof.FrameIdealP
import proofs.«118683_j73057393705216_2_alg».proof.Proof.ArrayValue
import proofs.«118683_j73057393705216_2_alg».proof.Proof.RefLogits
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- At the ideal instance the kernel's result array ends at the logits of the arguments (`ArrayValue.result`), and so
    does the reference's: its run's term is the last stage, which read at an index is the same `logitsAt` of arguments
    that agree; the gathered rows and biases on the two sides are one gather of one start-index column. The second
    results are the same broadcast of the integer zero. -/
theorem algebraic : Cert.algebraic_KernelIdeal_ReferenceIdeal := by
  intro m ρ m' ρ' _ hagree
  refine ⟨fun c => Cert.KernelIdeal.ArrayValue.result m c,
    fun c => broadcastInDim Cert.KernelIdeal.S8192 ![] Cert.KernelIdeal.Facts₀.bcast_S_S8192 (constantI Cert.KernelIdeal.S_ 32 0#32),
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    refine (Cert.ReferenceIdeal.Read.val_main_v48_eq (F := Ideal) _ _ _ _ _ _ _).trans ?_
    funext y
    rw [Cert.ReferenceIdeal.RefLogits.val_eq, h0, h1, h2, h3, h4, h5, h6]
    rfl
  · rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
